-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S256x256 : Shape := ⟨2, ![256, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x8192x256 .f32) (main_arg1 : FVec F S256x256 .f32) (main_arg2 : FVec F S256 .f32) (main_arg3 : FVec F S256 .f32) (main_arg4 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S16x8192x256 : Shape := ⟨3, ![16, 8192, 256]⟩
abbrev S256x256 : Shape := ⟨2, ![256, 256]⟩
abbrev S256 : Shape := ⟨1, ![256]⟩
abbrev S1x4096x256 : Shape := ⟨3, ![1, 4096, 256]⟩
abbrev S8192x256 : Shape := ⟨2, ![8192, 256]⟩
abbrev S1x256 : Shape := ⟨2, ![1, 256]⟩
abbrev S4096x256 : Shape := ⟨2, ![4096, 256]⟩

abbrev nBuf : Space → Nat
  | .hbm => 7
  | .vmem => 12
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S16x8192x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S1x4096x256, .f32⟩
  | .local _ .vmem, ⟨7, _⟩ => ⟨S1x4096x256, .f32⟩
  | .local _ .vmem, ⟨8, _⟩ => ⟨S8192x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c4096_i32 : BitVec 32 := 4096#32
  let v21 : BitVec 32 := Scalar.muli arg1 c4096_i32
  v21
def k0_off1 (i : grid0.Coords) : Fin 2 → Nat :=
  let arg1 : BitVec 32 := BitVec.ofNat 32 (i 1).val
  let c4096_i32 : BitVec 32 := 4096#32
  let v21 : BitVec 32 := Scalar.muli arg1 c4096_i32
  let v22 : BitVec 32 := v21
  let v23 : Index := Scalar.indexCast v22
  let c0_10 : Index := 0#32
  ![v23.toNat, 0]
def k0_cond4 (i : grid0.Coords) : BitVec 1 :=
  let arg1 : BitVec 32 := BitVec.ofNat 32 (i 1).val
  let c2_i32_3 : BitVec 32 := 2#32
  let v9 : BitVec 1 := Scalar.cmpi .sge arg1 c2_i32_3
  let v10 : BitVec 32 := Scalar.extui v9
  let c0_i32_4 : BitVec 32 := 0#32
  let v11 : BitVec 1 := Scalar.cmpi .ne v10 c0_i32_4
  v11

def k0_mult2 (i : grid0.Coords) : BitVec 32 :=
  let arg1 : BitVec 32 := BitVec.ofNat 32 (i 1).val
  let c2_i32_5 : BitVec 32 := 2#32
  let v12 : BitVec 32 := Scalar.subi arg1 c2_i32_5
  let c4096_i32 : BitVec 32 := 4096#32
  let v13 : BitVec 32 := Scalar.muli v12 c4096_i32
  v13
def k0_off2 (i : grid0.Coords) : Fin 2 → Nat :=
  let arg1 : BitVec 32 := BitVec.ofNat 32 (i 1).val
  let c2_i32_5 : BitVec 32 := 2#32
  let v12 : BitVec 32 := Scalar.subi arg1 c2_i32_5
  let c4096_i32 : BitVec 32 := 4096#32
  let v13 : BitVec 32 := Scalar.muli v12 c4096_i32
  let v14 : BitVec 32 := v13
  let v15 : Index := Scalar.indexCast v14
  let c0 : Index := 0#32
  ![v15.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x256_S256x256_1_0 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  h_S4096x256 : 0 < S4096x256.numel
  shapeCasts_S4096x256_S4096x256 : S4096x256.ShapeCasts S4096x256
  reduces_S4096x256_S256 : S4096x256.Reduces [0] S256
  inb_S8192x256_S8192x256_0_0 : ∀ a, (![0, 0] : Fin 2 → Nat) a + S8192x256.size a ≤ S8192x256.size a
  h_S8192x256 : 0 < S8192x256.numel
  broadcasts_S1x256_S8192x256 : S1x256.Broadcasts S8192x256
  reduces_S8192x256_S256 : S8192x256.Reduces [0] S256
  shapeCasts_S4096x256_S1x4096x256 : S4096x256.ShapeCasts S1x4096x256
  dot_S4096x256_S256x256_S4096x256_1_0_0_1_n_n_wf : DotDims.WF S4096x256 S256x256 S4096x256 [1] [0] [0] [1] [] []
  hrank0 : 0 < grid0.rank
  k0_mult1_dvd : ∀ i : grid0.Coords, ∀ (k0_h2 : k0_cond2 i = 1#1), 4096 ∣ (k0_mult1 i).toNat
  k0_off1_inb : ∀ i : grid0.Coords, ∀ (k0_h2 : k0_cond2 i = 1#1), ∀ a, (k0_off1 i) a + S4096x256.size a ≤ S8192x256.size a
  k0_mult2_dvd : ∀ i : grid0.Coords, ∀ (k0_h4 : k0_cond4 i = 1#1), 4096 ∣ (k0_mult2 i).toNat
  k0_off2_inb : ∀ i : grid0.Coords, ∀ (k0_h4 : k0_cond4 i = 1#1), ∀ a, (k0_off2 i) a + S4096x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x8192x256.size a
  hwx0_0 : ∀ i : grid0.Coords, EltTy.bits .f32 = 32 ∨ (Rect.block (s := S16x8192x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x256.size a ≤ S16x8192x256.size a
  hwx0_5 : ∀ i : grid0.Coords, EltTy.bits .f32 = 32 ∨ (Rect.block (s := S16x8192x256) S1x4096x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S16x8192x256 : Shape := ⟨3, ![16, 8192, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S16x256 : Shape := ⟨2, ![16, 256]⟩
abbrev S16x1x256 : Shape := ⟨3, ![16, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S16x8192x256, .f32⟩
  | .hbm, ⟨6, _⟩ => ⟨S1x1x256, .f32⟩
  | .hbm, ⟨7, _⟩ => ⟨S16x8192x256, .f32⟩
  | .hbm, ⟨8, _⟩ => ⟨S16x8192x256, .f32⟩
  | .hbm, ⟨9, _⟩ => ⟨S_, .f32⟩
  | .hbm, ⟨10, _⟩ => ⟨S16x256, .f32⟩
  | .hbm, ⟨11, _⟩ => ⟨S16x1x256, .f32⟩
  | .hbm, ⟨12, _⟩ => ⟨S_, .f32⟩
  | .hbm, ⟨13, _⟩ => ⟨S16x1x256, .f32⟩
  | .hbm, ⟨14, _⟩ => ⟨S16x1x256, .f32⟩
  | .hbm, ⟨15, _⟩ => ⟨S16x8192x256, .f32⟩
  | .hbm, ⟨16, _⟩ => ⟨S16x8192x256, .f32⟩
  | .hbm, ⟨17, _⟩ => ⟨S16x8192x256, .f32⟩
  | .hbm, ⟨18, _⟩ => ⟨S_, .f32⟩
  | .hbm, ⟨19, _⟩ => ⟨S16x256, .f32⟩
  | .hbm, ⟨20, _⟩ => ⟨S16x1x256, .f32⟩
  | .hbm, ⟨21, _⟩ => ⟨S_, .f32⟩
  | .hbm, ⟨22, _⟩ => ⟨S16x1x256, .f32⟩
  | .hbm, ⟨23, _⟩ => ⟨S16x1x256, .f32⟩
  | .hbm, ⟨24, _⟩ => ⟨S16x8192x256, .f32⟩
  | .hbm, ⟨25, _⟩ => ⟨S16x8192x256, .f32⟩
  | .hbm, ⟨26, _⟩ => ⟨S_, .f32⟩
  | .hbm, ⟨27, _⟩ => ⟨S16x1x256, .f32⟩
  | .hbm, ⟨28, _⟩ => ⟨S16x1x256, .f32⟩
  | .hbm, ⟨29, _⟩ => ⟨S16x1x256, .f32⟩
  | .hbm, ⟨30, _⟩ => ⟨S16x8192x256, .f32⟩
  | .hbm, ⟨31, _⟩ => ⟨S16x8192x256, .f32⟩
  | .hbm, ⟨32, _⟩ => ⟨S1x1x256, .f32⟩
  | .hbm, ⟨33, _⟩ => ⟨S16x8192x256, .f32⟩
  | .hbm, ⟨34, _⟩ => ⟨S16x8192x256, .f32⟩
  | .hbm, ⟨35, _⟩ => ⟨S1x1x256, .f32⟩
  | .hbm, ⟨36, _⟩ => ⟨S16x8192x256, .f32⟩
  | .hbm, ⟨37, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  reducesTo_S16x8192x256_S16x256_d1 : S16x8192x256.ReducesTo [1] S16x256
  h_S_ : 0 < S_.numel
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x8192x256_0_1_2 : S16x1x256.BroadcastsInDim S16x8192x256 (![0, 1, 2] : Fin 3 → Fin S16x8192x256.rank)
  dot_S16x8192x256_S256x256_S16x8192x256_2_1_01_0_n_n_wf : DotDims.WF S16x8192x256 S256x256 S16x8192x256 [2] [1] [0, 1] [0] [] []

variable [Facts₀]

def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf

class Facts : Prop extends Facts₀ where

variable [Facts]
-- ==== Proof.BodyBits.Common.lean ====
import proofs.«122771_j89094801588783_2_alg».proof.Proof.Gen.Kernel.Frame
import proofs.«122771_j89094801588783_2_alg».proof.Proof.Gen.Kernel.Skeleton
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four conditionals of the body, as propositions over the grid coordinates

The body branches on the second grid coordinate `n` (the position within a batch, 0 ≤ n < 4): `n = 0` (reset the running
sum), `n < 2` (the first phase: one tile of the affine layer is computed, stored into the batch-long scratch and added
to the running sum), `n = 1` (the batch's statistics are taken) and `n ≥ 2` (the second phase: one tile is normalized
and written out). -/

abbrev condReset (i : grid0.Coords) : Prop := (Scalar.cmpi .ne (Scalar.extui (Scalar.cmpi .eq (BitVec.ofNat 32 (i 1).val) 0#32)) 0#32) = 1#1
abbrev condTile (i : grid0.Coords) : Prop := k0_cond2 i = 1#1
abbrev condStats (i : grid0.Coords) : Prop := (Scalar.cmpi .ne (Scalar.extui (Scalar.cmpi .eq (BitVec.ofNat 32 (i 1).val) 1#32)) 0#32) = 1#1
abbrev condOut (i : grid0.Coords) : Prop := k0_cond4 i = 1#1

/-- The position within the batch is the point's number modulo 4; each condition decided over the 64 points. -/
theorem hcondReset : ∀ t : Fin cfg0.N, condReset (grid0.coords t) ↔ t.val % 4 = 0 :=
  (by decide +kernel : ∀ t : Fin grid0.N, condReset (grid0.coords t) ↔ t.val % 4 = 0)
theorem hcondTile : ∀ t : Fin cfg0.N, condTile (grid0.coords t) ↔ t.val % 4 < 2 :=
  (by decide +kernel : ∀ t : Fin grid0.N, condTile (grid0.coords t) ↔ t.val % 4 < 2)
theorem hcondStats : ∀ t : Fin cfg0.N, condStats (grid0.coords t) ↔ t.val % 4 = 1 :=
  (by decide +kernel : ∀ t : Fin grid0.N, condStats (grid0.coords t) ↔ t.val % 4 = 1)
theorem hcondOut : ∀ t : Fin cfg0.N, condOut (grid0.coords t) ↔ 2 ≤ t.val % 4 :=
  (by decide +kernel : ∀ t : Fin grid0.N, condOut (grid0.coords t) ↔ 2 ≤ t.val % 4)

/-- The row offset of the tile stored in the first phase is 4096 times the position. -/
theorem hoffTile : ∀ t : Fin cfg0.N, t.val % 4 < 2 → k0_off1 (grid0.coords t) = ![4096 * (t.val % 4), 0] :=
  (by decide +kernel : ∀ t : Fin grid0.N, t.val % 4 < 2 → k0_off1 (grid0.coords t) = ![4096 * (t.val % 4), 0])
/-- The row offset of the tile read back in the second phase is 4096 times the position less two. -/
theorem hoffOut : ∀ t : Fin cfg0.N, 2 ≤ t.val % 4 → k0_off2 (grid0.coords t) = ![4096 * (t.val % 4 - 2), 0] :=
  (by decide +kernel : ∀ t : Fin grid0.N, 2 ≤ t.val % 4 → k0_off2 (grid0.coords t) = ![4096 * (t.val % 4 - 2), 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- In the first phase nothing is stored into the output window, -/
theorem idle5 : ∀ t : Fin cfg0.N, t.val % 4 < 2 → cfg0.idle 5 (grid0.coords t) = true := by decide +kernel
/-- and its block is not written back there; -/
theorem noFlush5 : ∀ t : Fin cfg0.N, t.val % 4 < 2 → (cfg0.win 5).flush t = false := by decide +kernel
/-- in the second phase it is stored whole. -/
theorem live5 : ∀ t : Fin cfg0.N, 2 ≤ t.val % 4 → cfg0.idle 5 (grid0.coords t) = false := by decide +kernel

/-! ## Rows of the batch-long scratch -/

/-- The contents of the batch-long scratch after 4096 whole rows, from row `o` on, are overwritten by the tile `w`. -/
def putRows (d : Vec F S8192x256 .f32) (o : ℕ) (w : Vec F S4096x256 .f32) : Vec F S8192x256 .f32 := fun y =>
  if h : o ≤ (y (0 : Fin 2)).val ∧ (y (0 : Fin 2)).val < o + 4096 then
    w (Rect.unitLocal (s := S8192x256) (off := ![o, 0]) (size := S4096x256.size) y (Rect.unit_rows_mem y rfl rfl h))
  else d y

/-- One store of a tile through the rectangle of 4096 whole rows at row offset `o` leaves `putRows`. -/
theorem read_store_rows {κ : Kind} (v : View sig κ .vmem S8192x256 .f32) (f : v.ty.Contents (Elt F)) (off : Fin 2 → ℕ)
    (inb : ∀ a, off a + S4096x256.size a ≤ S8192x256.size a) (w : Vec F S4096x256 .f32) (o : ℕ) (hoff : off = ![o, 0]) :
    v.read (Elt F) (v.writes (Elt F) f [(⟨Rect.unit (s := S8192x256) off S4096x256.size inb, w⟩ : View.Piece (Elt F) S8192x256 .f32)])
      = putRows (v.read (Elt F) f) o w := by
  funext y
  rw [View.read_writes_cons_rows v f inb w [] y hoff (W := 4096) rfl rfl]
  unfold putRows
  simp only [View.writes_nil]

/-- The zero offset of each rank-1, rank-2 and rank-3 shape used here, as the constant-zero function. -/
theorem hz1 : (![0] : Fin S256.rank → ℕ) = fun _ => 0 := by funext a; fin_cases a; rfl
theorem hz2 : (![0, 0] : Fin S1x256.rank → ℕ) = fun _ => 0 := by funext a; fin_cases a <;> rfl
theorem hz2w : (![0, 0] : Fin S256x256.rank → ℕ) = fun _ => 0 := by funext a; fin_cases a <;> rfl
theorem hz2d : (![0, 0] : Fin S8192x256.rank → ℕ) = fun _ => 0 := by funext a; fin_cases a <;> rfl
theorem hz3 : (![0, 0, 0] : Fin S1x4096x256.rank → ℕ) = fun _ => 0 := by funext a; fin_cases a <;> rfl

/-- What one store through the whole-shape rectangle leaves is its payload. -/
theorem read_store_whole {S : Shape} {κ : Kind} (v : View sig κ .vmem S .f32) (f : v.ty.Contents (Elt F)) {off : Fin S.rank → ℕ}
    (h : off = fun _ => 0) (inb : ∀ a, off a + S.size a ≤ S.size a) (w : Vec F S .f32) (L : List (View.Piece (Elt F) S .f32)) :
    v.read (Elt F) (v.writes (Elt F) f ((⟨Rect.unit off S.size inb, w⟩ : View.Piece (Elt F) S .f32) :: L)) = w := by
  rw [View.read_writes_eq_canon v f _ (fun y => ⟨_, List.mem_cons_self, View.mem_set_unit_zero h inb y⟩),
    View.canon_cons_unit_zero h]

end Cert.Kernel.Body

end
-- ==== Proof.BodyBits.CaseFirst.lean ====
import proofs.«122771_j89094801588783_2_alg».proof.Proof.BodyBits.Common

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first point of a batch (`n = 0`): the running sum is reset to zero, the first tile of the affine layer is computed
    from the point's block of `x`, the transposed weights and the bias, stored into rows `[o, o + 4096)` of the batch-long
    scratch, and its column sums are added to the running sum. -/
theorem runFirst (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : condReset i) (hc1 : condTile i) (hc2 : ¬condStats i) (hc3 : ¬condOut i)
    (o : ℕ) (ho : k0_off1 i = ![o, 0])
    (x2 : Vec F S1x4096x256 .f32) (x3 : Vec F S256x256 .f32) (x4 : Vec F S256 .f32) (d8 : Vec F S8192x256 .f32) (d9 : Vec F S1x256 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg8 fullShare d8 ∗ owns (c : Thread nD τ) arg9 fullShare d9
        ∗ (iprop(owns (c : Thread nD τ) arg2 fullShare x2 ∗ owns (c : Thread nD τ) arg3 fullShare x3 ∗ owns (c : Thread nD τ) arg4 fullShare x4
            ∗ owns (c : Thread nD τ) arg8 fullShare (putRows d8 o (k0_pay3 x2 x3 x4))
            ∗ owns (c : Thread nD τ) arg9 fullShare (k0_pay4 x2 x3 x4 (k0_pay1 (F := F)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    rw [read_store_rows _ _ _ _ _ o ho]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf8]
  iexists _; isplitr
  swap; · iexact H9
  ipureintro
  unfold runFirst.sl.v27 runFirst.sl.H9_1
  rw [read_store_whole _ _ hz2]
  simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9, View.readCov_unit_zero (S := S1x256) _ hz2]

end Cert.Kernel.Body

end
-- ==== Proof.BodyBits.CaseSecond.lean ====
import proofs.«122771_j89094801588783_2_alg».proof.Proof.BodyBits.Common

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The second point of a batch (`n = 1`): the second tile is computed and stored into rows `[o, o + 4096)` of the batch-long
    scratch and its column sums are added to the running sum; then the batch's mean row is the running sum times 1/8192, and
    its variance row the column sums of the squared deviations of the WHOLE scratch from the mean, divided by 8192. -/
theorem runSecond (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : ¬condReset i) (hc1 : condTile i) (hc2 : condStats i) (hc3 : ¬condOut i)
    (o : ℕ) (ho : k0_off1 i = ![o, 0])
    (x2 : Vec F S1x4096x256 .f32) (x3 : Vec F S256x256 .f32) (x4 : Vec F S256 .f32) (d8 : Vec F S8192x256 .f32) (d9 : Vec F S1x256 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg8 fullShare d8 ∗ owns (c : Thread nD τ) arg9 fullShare d9
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4
            ∗ owns (c : Thread nD τ) arg8 fullShare (putRows d8 o (k0_pay3 x2 x3 x4))
            ∗ owns (c : Thread nD τ) arg9 fullShare (k0_pay4 x2 x3 x4 d9)
            ∗ owns (c : Thread nD τ) arg10 fullShare (k0_pay6 (k0_pay4 x2 x3 x4 d9))
            ∗ owns (c : Thread nD τ) arg11 fullShare (k0_pay7 (k0_pay4 x2 x3 x4 d9) (putRows d8 o (k0_pay3 x2 x3 x4)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    unfold runSecond.sl.H8_1
    rw [read_store_rows _ _ _ _ _ o ho]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf8]
  isplitl [H9]
  · iexists _; isplitr
    swap; · iexact H9
    ipureintro
    unfold runSecond.sl.H9_1
    rw [read_store_whole _ _ hz2]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  isplitl [H10]
  · iexists _; isplitr
    swap; · iexact H10
    ipureintro
    rw [read_store_whole _ _ hz2]
    unfold runSecond.sl.v12
    try unfold runSecond.sl.H9_1
    rw [View.readCov_unit_zero (S := S1x256) _ hz2]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  iexists _; isplitr
  swap; · iexact H11
  ipureintro
  rw [read_store_whole _ _ hz2]
  unfold runSecond.sl.v12 runSecond.sl.v15
  try unfold runSecond.sl.H9_1
  try unfold runSecond.sl.H8_1
  rw [View.readCov_unit_zero (S := S1x256) _ hz2]
  simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  rw [read_store_rows _ _ _ _ _ o ho, hf8]

end Cert.Kernel.Body

end
-- ==== Proof.BodyBits.CaseOut.lean ====
import proofs.«122771_j89094801588783_2_alg».proof.Proof.BodyBits.Common

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The second phase (`n ≥ 2`): the tile at rows `[4096 (n − 2), 4096 (n − 1))` of the batch-long scratch is read back, centred by the
    mean row, scaled by the reciprocal root of the variance row plus ε, then by γ, shifted by β, and stored whole into the
    output window; the scratch and the scale and shift vectors are left as found. -/
theorem runOut (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : ¬condReset i) (hc1 : ¬condTile i) (hc2 : ¬condStats i) (hc3 : condOut i)
    (x5 x6 : Vec F S256 .f32) (d8 : Vec F S8192x256 .f32) (d10 d11 : Vec F S1x256 .f32)
    (E : Set ℕ) (K : PUnit → sProp 𝕄) :
    iprop(owns (c : Thread nD τ) arg5 fullShare x5 ∗ owns (c : Thread nD τ) arg6 fullShare x6
        ∗ (∃ d, owns (c : Thread nD τ) arg7 fullShare d)
        ∗ owns (c : Thread nD τ) arg8 fullShare d8 ∗ owns (c : Thread nD τ) arg10 fullShare d10 ∗ owns (c : Thread nD τ) arg11 fullShare d11
        ∗ (iprop(owns (c : Thread nD τ) arg5 fullShare x5 ∗ owns (c : Thread nD τ) arg6 fullShare x6
            ∗ owns (c : Thread nD τ) arg7 fullShare (k0_pay8 (View.ld d8 (Rect.unit (s := S8192x256) (k0_off2 i) S4096x256.size (k0_off2_inb i hc3))) d11 d10 x5 x6)
            ∗ owns (c : Thread nD τ) arg8 fullShare d8 ∗ owns (c : Thread nD τ) arg10 fullShare d10 ∗ owns (c : Thread nD τ) arg11 fullShare d11) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f5, %hf5, H5⟩, ⟨%f6, %hf6, H6⟩, ⟨%d7, %f7, -, H7⟩, ⟨%f8, %hf8, H8⟩, ⟨%f10, %hf10, H10⟩, ⟨%f11, %hf11, H11⟩, Hk⟩
  obtain rfl := harg5.eq_unread hf5; obtain rfl := harg6.eq_unread hf6; obtain rfl := harg8.eq_unread hf8
  obtain rfl := harg10.eq_unread hf10; obtain rfl := harg11.eq_unread hf11
  sl_exec (disch := first | exact hc0 | exact hc1 | exact hc2 | exact hc3)
  sl_step
  iapply Hk
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [read_store_whole _ _ hz3]
    simp only [View.readAt_eq_ld, hf5, hf6, hf8, hf10, hf11, View.ld_unit_zero (S := S1x256) hz2, View.ld_unit_zero (S := S256) hz1]
  isplitl [H8]
  · iexists _; isplitr; · ipureintro; exact hf8
    iexact H8
  isplitl [H10]
  · iexists _; isplitr; · ipureintro; exact hf10
    iexact H10
  iexists _; isplitr; · ipureintro; exact hf11
  iexact H11

end Cert.Kernel.Body

end
-- ==== Proof.BodyBits.Rows.lean ====
import proofs.«122771_j89094801588783_2_alg».proof.Proof.BodyBits.Common
import Idealize.ShloMosaic.Lib.ValueIdx

/-
  Rows of the batch-long scratch: what a load of 4096 whole rows reads after a tile has been stored over 4096 whole rows,
  and the contents of the whole scratch, 8192 rows, as the two tiles laid one after the other.

  A load through the unit-stride rectangle of 4096 whole rows at row offset o reads the element (o + r, c) of the
  contents at its own (r, c). After the tile w has been stored over the rows o, …, o + 4095, the element (R, c) is
  w at (R − o, c) when o ≤ R < o + 4096 and the old contents otherwise. So the load at the same offset reads w back,
  and the load of the rows 0, …, 4095 after a store over the rows 4096, …, 8191 reads what it read before.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

/-! ## The two rectangles of 4096 whole rows -/

/-- The rows 0, …, 4095 and every column lie inside the 8192 × 256 scratch. -/
theorem inbRows0 : ∀ a : Fin 2, (![0, 0] : Fin 2 → ℕ) a + S4096x256.size a ≤ S8192x256.size a := by decide
/-- The rows 4096, …, 8191 and every column lie inside the 8192 × 256 scratch. -/
theorem inbRows1 : ∀ a : Fin 2, (![4096, 0] : Fin 2 → ℕ) a + S4096x256.size a ≤ S8192x256.size a := by decide

/-- The first 4096 rows. -/
abbrev rows0 : Rect S8192x256 := Rect.unit (s := S8192x256) ![0, 0] S4096x256.size inbRows0
/-- The last 4096 rows. -/
abbrev rows1 : Rect S8192x256 := Rect.unit (s := S8192x256) ![4096, 0] S4096x256.size inbRows1

/-- A load through a rectangle of 4096 whole rows depends on the rectangle's offsets only. -/
theorem ld_rows_congr (d : Vec F S8192x256 .f32) (off : Fin 2 → ℕ) (inb : ∀ a, off a + S4096x256.size a ≤ S8192x256.size a) (o : ℕ)
    (inb' : ∀ a, (![o, 0] : Fin 2 → ℕ) a + S4096x256.size a ≤ S8192x256.size a) (h : off = ![o, 0]) :
    View.ld d (Rect.unit (s := S8192x256) off S4096x256.size inb) = View.ld d (Rect.unit (s := S8192x256) ![o, 0] S4096x256.size inb') := by
  subst h; rfl

/-! ## A load after a store -/

/-- The load of the 4096 rows from row o on, after the tile w has been stored over those rows, reads w. -/
theorem ld_putRows_same (d : Vec F S8192x256 .f32) (w : Vec F S4096x256 .f32) (o : ℕ)
    (inb : ∀ a, (![o, 0] : Fin 2 → ℕ) a + S4096x256.size a ≤ S8192x256.size a) :
    View.ld (putRows d o w) (Rect.unit (s := S8192x256) ![o, 0] S4096x256.size inb) = w := by
  funext x
  show putRows d o w ((Rect.unit (s := S8192x256) ![o, 0] S4096x256.size inb).idx x) = w x
  have hx : (x (0 : Fin 2)).val < 4096 := (x (0 : Fin 2)).isLt
  have h0 : (((Rect.unit (s := S8192x256) ![o, 0] S4096x256.size inb).idx x) (0 : Fin 2)).val = o + 1 * (x (0 : Fin 2)).val := rfl
  unfold putRows
  rw [dif_pos ⟨by omega, by omega⟩]
  refine congrArg w (funext fun a => Fin.ext ?_)
  rw [Rect.unitLocal_val]
  show (![o, 0] : Fin 2 → ℕ) a + 1 * (x a).val - (![o, 0] : Fin 2 → ℕ) a = (x a).val
  omega

theorem ld_putRows_rows0 (d : Vec F S8192x256 .f32) (w : Vec F S4096x256 .f32) : View.ld (putRows d 0 w) rows0 = w :=
  ld_putRows_same d w 0 inbRows0

theorem ld_putRows_rows1 (d : Vec F S8192x256 .f32) (w : Vec F S4096x256 .f32) : View.ld (putRows d 4096 w) rows1 = w :=
  ld_putRows_same d w 4096 inbRows1

/-- The load of the first 4096 rows is not changed by a store over the last 4096 rows. -/
theorem ld_putRows_other (d : Vec F S8192x256 .f32) (w : Vec F S4096x256 .f32) : View.ld (putRows d 4096 w) rows0 = View.ld d rows0 := by
  funext x
  show putRows d 4096 w (rows0.idx x) = d (rows0.idx x)
  have hx : (x (0 : Fin 2)).val < 4096 := (x (0 : Fin 2)).isLt
  have h0 : ((rows0.idx x) (0 : Fin 2)).val = 0 + 1 * (x (0 : Fin 2)).val := rfl
  unfold putRows
  rw [dif_neg (by omega)]

/-! ## The whole scratch as two tiles -/

/-- The 8192 × 256 contents whose first 4096 rows are y0 and whose last 4096 rows are y1. -/
def glue (y0 y1 : Vec F S4096x256 .f32) : Vec F S8192x256 .f32 := putRows (putRows (fun _ => @Classical.arbitrary (Elt F .f32) (Elt.nonempty F .f32)) 0 y0) 4096 y1

/-- Every row of the scratch is one of the first 4096 or one of the last 4096: after a store over the last 4096 rows the
    contents are the first 4096 rows as they were, followed by the tile stored. -/
theorem putRows_eq_glue (d : Vec F S8192x256 .f32) (w : Vec F S4096x256 .f32) : putRows d 4096 w = glue (View.ld d rows0) w := by
  funext y
  have hy : (y (0 : Fin 2)).val < 8192 := (y (0 : Fin 2)).isLt
  unfold glue putRows
  by_cases h : 4096 ≤ (y (0 : Fin 2)).val ∧ (y (0 : Fin 2)).val < 4096 + 4096
  · rw [dif_pos h, dif_pos h]
  · have h' : 0 ≤ (y (0 : Fin 2)).val ∧ (y (0 : Fin 2)).val < 0 + 4096 := ⟨Nat.zero_le _, by omega⟩
    rw [dif_neg h, dif_neg h, dif_pos h']
    show d y = d (rows0.idx _)
    refine congrArg d (funext fun a => Fin.ext ?_)
    have ha := Rect.unit_rows_mem (size := S4096x256.size) (W := 4096) y rfl rfl h' a
    show (y a).val = (![0, 0] : Fin 2 → ℕ) a + 1 * ((y a).val - (![0, 0] : Fin 2 → ℕ) a)
    omega

/-- The first 4096 rows of the two tiles laid one after the other are the first tile. -/
theorem glue_at0 (y0 y1 : Vec F S4096x256 .f32) (r : Fin 4096) (o : Fin 256) :
    glue y0 y1 (ix2 (⟨r.val, by omega⟩ : Fin 8192) o) = y0 (ix2 r o) := by
  have hr : r.val < 4096 := r.isLt
  have h0 : ((ix2 (⟨r.val, by omega⟩ : Fin 8192) o : S8192x256.Idx) (0 : Fin 2)).val = r.val := rfl
  unfold glue putRows
  rw [dif_neg (by omega), dif_pos ⟨by omega, by omega⟩]
  refine congrArg y0 (funext fun a => Fin.ext ?_)
  rw [Rect.unitLocal_val]
  match a with
  | ⟨0, _⟩ => rfl
  | ⟨1, _⟩ => rfl

/-- The last 4096 rows of the two tiles laid one after the other are the second tile. -/
theorem glue_at1 (y0 y1 : Vec F S4096x256 .f32) (r : Fin 4096) (o : Fin 256) :
    glue y0 y1 (ix2 (⟨4096 + r.val, by omega⟩ : Fin 8192) o) = y1 (ix2 r o) := by
  have hr : r.val < 4096 := r.isLt
  have h0 : ((ix2 (⟨4096 + r.val, by omega⟩ : Fin 8192) o : S8192x256.Idx) (0 : Fin 2)).val = 4096 + r.val := rfl
  unfold glue putRows
  rw [dif_pos ⟨by omega, by omega⟩]
  refine congrArg y1 (funext fun a => Fin.ext ?_)
  rw [Rect.unitLocal_val]
  match a with
  | ⟨0, _⟩ => show 4096 + r.val - 4096 = r.val; omega
  | ⟨1, _⟩ => rfl

end Cert.Kernel.Body

end
-- ==== Proof.BodyBits.State.lean ====
import proofs.«122771_j89094801588783_2_alg».proof.Proof.BodyBits.CaseFirst
import proofs.«122771_j89094801588783_2_alg».proof.Proof.BodyBits.CaseSecond
import proofs.«122771_j89094801588783_2_alg».proof.Proof.BodyBits.CaseOut
import proofs.«122771_j89094801588783_2_alg».proof.Proof.BodyBits.Rows

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4096x256 .f32 := win0_5.stage (cfg0.slots t 5)
abbrev hs5 (t : Fin cfg0.N) : (ms5 t).IsWhole := hstage0_5 ((cfg0.slots t 5).cast nbuf0_5)
/-- The four scratch operands: the batch-long copy of the affine layer, the running sum, the mean row, the variance row. -/
abbrev sc8 : Memref sig .tc .vmem S8192x256 .f32 := Memref.whole cc0_scratch0
abbrev sc9 : Memref sig .tc .vmem S1x256 .f32 := Memref.whole cc0_scratch1
abbrev sc10 : Memref sig .tc .vmem S1x256 .f32 := Memref.whole cc0_scratch2
abbrev sc11 : Memref sig .tc .vmem S1x256 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc8, sc9, sc10, sc11, owns_whole]; try rfl

/-! ## What the scratch operands hold after each point

Within a batch (four consecutive points) the first point computes the first tile `y0` of the affine layer and starts the running
sum `s`; the second computes the second tile `y1`, completes the sum, and takes the mean row `mn` and the variance row `vr` of the
whole batch (both tiles); the third and fourth change nothing. What a component holds before it is first written is never used. -/

structure St (F : FTy → Type) [FloatOps F] where
  y0 : Vec F S4096x256 .f32
  y1 : Vec F S4096x256 .f32
  s : Vec F S1x256 .f32
  mn : Vec F S1x256 .f32
  vr : Vec F S1x256 .f32

def junkSt : St F :=
  let j : Elt F .f32 := @Classical.arbitrary (Elt F .f32) (Elt.nonempty F .f32)
  ⟨fun _ => j, fun _ => j, fun _ => j, fun _ => j, fun _ => j⟩

/-- One point's effect on the tracked values, from the point's blocks of `x`, of the transposed weights and of the bias. -/
def step (c : Dev nD) (t : Fin cfg0.N) (p : St F) : St F :=
  if t.val % 4 = 0 then
    ⟨k0_pay3 (iblk m c 0 t) (iblk m c 1 t) (iblk m c 2 t), p.y1, k0_pay4 (iblk m c 0 t) (iblk m c 1 t) (iblk m c 2 t) (k0_pay1 (F := F)), p.mn, p.vr⟩
  else if t.val % 4 = 1 then
    ⟨p.y0, k0_pay3 (iblk m c 0 t) (iblk m c 1 t) (iblk m c 2 t), k0_pay4 (iblk m c 0 t) (iblk m c 1 t) (iblk m c 2 t) p.s, k0_pay6 (k0_pay4 (iblk m c 0 t) (iblk m c 1 t) (iblk m c 2 t) p.s),
      k0_pay7 (k0_pay4 (iblk m c 0 t) (iblk m c 1 t) (iblk m c 2 t) p.s) (glue p.y0 (k0_pay3 (iblk m c 0 t) (iblk m c 1 t) (iblk m c 2 t)))⟩
  else p

/-- The tracked values after point `n`. -/
def stAt (c : Dev nD) : (n : ℕ) → n < cfg0.N → St F
  | 0, h => step m c ⟨0, h⟩ junkSt
  | n + 1, h => step m c ⟨n + 1, h⟩ (stAt c n (Nat.lt_of_succ_lt h))

/-- The tracked values before point `t`. -/
def prevSt (c : Dev nD) (t : Fin cfg0.N) : St F :=
  if h : t.val = 0 then junkSt else stAt m c (t.val - 1) (by have := t.isLt; omega)

theorem stAt_eq (c : Dev nD) (t : Fin cfg0.N) : stAt m c t.val t.isLt = step m c t (prevSt m c t) := by
  obtain ⟨n, hn⟩ := t
  cases n with
  | zero => rfl
  | succ n => unfold prevSt; rw [dif_neg (Nat.succ_ne_zero n)]; rfl

/-- What is known of the scratch contents after point `t`: the first 4096 rows of the batch-long scratch are the first tile
    and the running sum is the tracked one; from the batch's second point on, also the last 4096 rows are the second tile and
    the mean and variance rows are the tracked ones. -/
def Inv (c : Dev nD) (t : Fin cfg0.N) (d8 : Vec F S8192x256 .f32) (d9 d10 d11 : Vec F S1x256 .f32) : Prop :=
  View.ld d8 rows0 = (stAt m c t.val t.isLt).y0 ∧ d9 = (stAt m c t.val t.isLt).s ∧
    (1 ≤ t.val % 4 → View.ld d8 rows1 = (stAt m c t.val t.isLt).y1 ∧ d10 = (stAt m c t.val t.isLt).mn ∧ d11 = (stAt m c t.val t.isLt).vr)

/-- The same before position `n`: nothing before the first point. -/
def InvB (c : Dev nD) : (n : ℕ) → n ≤ cfg0.N → Vec F S8192x256 .f32 → Vec F S1x256 .f32 → Vec F S1x256 .f32 → Vec F S1x256 .f32 → Prop
  | 0, _ => fun _ _ _ _ => True
  | n + 1, h => Inv m c ⟨n, h⟩

/-- The region invariant before position `n`: the four scratch operands at contents of which `InvB` holds, and the generator
    register at some state. -/
def PhiS (c : Dev nD) (n : ℕ) (hn : n ≤ cfg0.N) : sProp 𝕄 :=
  iprop(∃ d8 : Vec F S8192x256 .f32, ∃ d9 : Vec F S1x256 .f32, ∃ d10 : Vec F S1x256 .f32, ∃ d11 : Vec F S1x256 .f32,
    ⌜InvB m c n hn d8 d9 d10 d11⌝ ∗ owns (c : Thread nD τ) sc8 fullShare d8 ∗ owns (c : Thread nD τ) sc9 fullShare d9
      ∗ owns (c : Thread nD τ) sc10 fullShare d10 ∗ owns (c : Thread nD τ) sc11 fullShare d11 ∗ (∃ r, prngReg c r))

/-- What the output window's staging buffer holds after the body at a point of the second phase: the tile of that point
    (the first at position 2, the second at position 3) normalized by the batch's mean and variance rows, scaled and shifted. -/
def outAt (c : Dev nD) (t : Fin cfg0.N) : Vec F S1x4096x256 .f32 :=
  k0_pay8 (if t.val % 4 = 2 then (stAt m c t.val t.isLt).y0 else (stAt m c t.val t.isLt).y1)
    (stAt m c t.val t.isLt).vr (stAt m c t.val t.isLt).mn (iblk m c 3 t) (iblk m c 4 t)

/-! ## The invariant is kept -/

theorem inv_first (c : Dev nD) (t : Fin cfg0.N) (h0 : t.val % 4 = 0) (d8 : Vec F S8192x256 .f32) (d10 d11 : Vec F S1x256 .f32) :
    Inv m c t (putRows d8 (4096 * (t.val % 4)) (k0_pay3 (iblk m c 0 t) (iblk m c 1 t) (iblk m c 2 t))) (k0_pay4 (iblk m c 0 t) (iblk m c 1 t) (iblk m c 2 t) (k0_pay1 (F := F))) d10 d11 := by
  have hs := stAt_eq m c t
  unfold step at hs; rw [if_pos h0] at hs
  refine ⟨?_, ?_, fun h1 => by omega⟩
  · rw [hs, show 4096 * (t.val % 4) = 0 from by omega]; exact ld_putRows_rows0 _ _
  · rw [hs]

theorem InvB_pos (c : Dev nD) (n : ℕ) (hn : n ≤ cfg0.N) (hz : n ≠ 0) (d8 : Vec F S8192x256 .f32) (d9 d10 d11 : Vec F S1x256 .f32) :
    InvB m c n hn d8 d9 d10 d11 = Inv m c ⟨n - 1, by omega⟩ d8 d9 d10 d11 := by
  cases n with
  | zero => exact absurd rfl hz
  | succ n => rfl

theorem prevSt_pos (c : Dev nD) (t : Fin cfg0.N) (hz : t.val ≠ 0) :
    prevSt m c t = stAt m c (t.val - 1) (by have := t.isLt; omega) := by
  unfold prevSt; rw [dif_neg hz]

/-- A load of 4096 whole rows at a row offset that is 0, or 4096, is the first, or the second, half. -/
theorem ld_rows_at0 (d : Vec F S8192x256 .f32) (off : Fin 2 → ℕ) (inb : ∀ a, off a + S4096x256.size a ≤ S8192x256.size a) (o : ℕ)
    (h : off = ![o, 0]) (ho : o = 0) : View.ld d (Rect.unit (s := S8192x256) off S4096x256.size inb) = View.ld d rows0 := by
  subst ho; subst h; rfl
theorem ld_rows_at1 (d : Vec F S8192x256 .f32) (off : Fin 2 → ℕ) (inb : ∀ a, off a + S4096x256.size a ≤ S8192x256.size a) (o : ℕ)
    (h : off = ![o, 0]) (ho : o = 4096) : View.ld d (Rect.unit (s := S8192x256) off S4096x256.size inb) = View.ld d rows1 := by
  subst ho; subst h; rfl

theorem inv_second (c : Dev nD) (t : Fin cfg0.N) (h1 : t.val % 4 = 1) (d8 : Vec F S8192x256 .f32) (d9 e10 e11 : Vec F S1x256 .f32)
    (hp : InvB m c t.val (Nat.le_of_lt t.isLt) d8 d9 e10 e11) :
    Inv m c t (putRows d8 (4096 * (t.val % 4)) (k0_pay3 (iblk m c 0 t) (iblk m c 1 t) (iblk m c 2 t))) (k0_pay4 (iblk m c 0 t) (iblk m c 1 t) (iblk m c 2 t) d9)
      (k0_pay6 (k0_pay4 (iblk m c 0 t) (iblk m c 1 t) (iblk m c 2 t) d9)) (k0_pay7 (k0_pay4 (iblk m c 0 t) (iblk m c 1 t) (iblk m c 2 t) d9) (putRows d8 (4096 * (t.val % 4)) (k0_pay3 (iblk m c 0 t) (iblk m c 1 t) (iblk m c 2 t)))) := by
  have hz : t.val ≠ 0 := by omega
  have hs := stAt_eq m c t
  unfold step at hs; rw [if_neg (by omega), if_pos h1, prevSt_pos m c t hz] at hs
  rw [InvB_pos m c _ _ hz] at hp
  obtain ⟨p0, p1, -⟩ := hp
  have e4 : 4096 * (t.val % 4) = 4096 := by omega
  rw [e4]
  refine ⟨?_, ?_, fun _ => ⟨?_, ?_, ?_⟩⟩
  · rw [hs, ld_putRows_other]; exact p0
  · rw [hs]; exact congrArg _ p1
  · rw [hs]; exact ld_putRows_rows1 _ _
  · rw [hs]; exact congrArg (fun z => k0_pay6 (k0_pay4 (iblk m c 0 t) (iblk m c 1 t) (iblk m c 2 t) z)) p1
  · rw [hs, putRows_eq_glue, p0, p1]

theorem inv_out (c : Dev nD) (t : Fin cfg0.N) (h2 : 2 ≤ t.val % 4) (d8 : Vec F S8192x256 .f32) (d9 d10 d11 : Vec F S1x256 .f32)
    (hp : InvB m c t.val (Nat.le_of_lt t.isLt) d8 d9 d10 d11)
    (inb : ∀ a, k0_off2 (grid0.coords t) a + S4096x256.size a ≤ S8192x256.size a) :
    Inv m c t d8 d9 d10 d11
      ∧ k0_pay8 (View.ld d8 (Rect.unit (s := S8192x256) (k0_off2 (grid0.coords t)) S4096x256.size inb)) d11 d10 (iblk m c 3 t) (iblk m c 4 t)
          = outAt m c t := by
  have hz : t.val ≠ 0 := by omega
  have hs := stAt_eq m c t
  unfold step at hs; rw [if_neg (by omega), if_neg (by omega), prevSt_pos m c t hz] at hs
  have hoff := hoffOut t h2
  rw [InvB_pos m c _ _ hz] at hp
  obtain ⟨p0, p1, p2⟩ := hp
  obtain ⟨q0, q1, q2⟩ := p2 (show 1 ≤ (t.val - 1) % 4 by omega)
  refine ⟨⟨?_, ?_, fun _ => ⟨?_, ?_, ?_⟩⟩, ?_⟩
  · rw [hs]; exact p0
  · rw [hs]; exact p1
  · rw [hs]; exact q0
  · rw [hs]; exact q1
  · rw [hs]; exact q2
  · unfold outAt
    rw [hs, ← q1, ← q2]
    by_cases h3 : t.val % 4 = 2
    · rw [if_pos h3, ← p0, ld_rows_at0 d8 _ inb _ hoff (by omega)]
    · rw [if_neg h3, ← q0, ld_rows_at1 d8 _ inb _ hoff (by omega)]

end Cert.Kernel.Body

end
-- ==== Proof.BodyBits.Run.lean ====
import proofs.«122771_j89094801588783_2_alg».proof.Proof.BodyBits.State

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- An input's buffer is handed back holding its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
/-- In the second phase the output's buffer is handed back holding `outAt`. -/
theorem leaves5 (c : Dev nD) (t : Fin cfg0.N) (h2 : 2 ≤ t.val % 4) : (dats m 0 c).leavesExact 5 t = owns (c : Thread nD τ) (ms5 t) fullShare (outAt m c t) := by
  unfold Dat.leavesExact; rw [live5 t h2, after5]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The point's position within its batch selects the case; the invariant hands the body the scratch
    operands at contents of which `InvB` holds and takes them back at contents of which the next `InvB` holds; in the first phase
    the output's buffer is handed back untouched, in the second it is stored whole; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c, before1 m c, before2 m c, before3 m c, before4 m c]
  rw [show (dats m 0 c).owesAt () t.succ = (dats m 0 c).owesAt () t.castSucc from rfl]
  rw [show (dats m 0 c).Φ t.succ = PhiS m c (t.val + 1) t.isLt from rfl, Phi_castSucc m c t]
  rw [leaves0 m c t, leaves1 m c t, leaves2 m c t, leaves3 m c t, leaves4 m c t]
  have hN : t.val < 64 := lt_of_lt_of_eq t.isLt N_0
  unfold PhiS
  by_cases h0 : t.val % 4 = 0
  · rw [Dat.leavesExact_idle (dats m 0 c) 5 t (idle5 t (by omega)) (noFlush5 t (by omega))]
    iintro ⟨⟨%d8, %d9, %d10, %d11, -, HS8, HS9, HS10, HS11, Hg⟩, Ho, ⟨%e0, H0⟩, ⟨%e1, H1⟩, ⟨%e2, H2⟩, ⟨%e3, H3⟩, ⟨%e4, H4⟩, H5⟩
    iapply (runFirst c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) ((hcondReset t).mpr h0) ((hcondTile t).mpr (by omega)) (fun h => by have := (hcondStats t).mp h; omega) (fun h => by have := (hcondOut t).mp h; omega)
      (4096 * (t.val % 4)) (hoffTile t (by omega)) (iblk m c 0 t) (iblk m c 1 t) (iblk m c 2 t) d8 d9 Set.univ _)
    isplitl [H0]; · iexact H0
    isplitl [H1]; · iexact H1
    isplitl [H2]; · iexact H2
    isplitl [HS8]; · iexact HS8
    isplitl [HS9]; · iexact HS9
    iintro ⟨H0, H1, H2, HS8, HS9⟩
    isplitl [HS8 HS9 HS10 HS11 Hg]
    · iexists (putRows d8 (4096 * (t.val % 4)) (k0_pay3 (iblk m c 0 t) (iblk m c 1 t) (iblk m c 2 t)))
      iexists (k0_pay4 (iblk m c 0 t) (iblk m c 1 t) (iblk m c 2 t) (k0_pay1 (F := F)))
      iexists d10
      iexists d11
      isplitr
      · ipureintro; exact inv_first m c t h0 d8 d10 d11
      isplitl [HS8]; · iexact HS8
      isplitl [HS9]; · iexact HS9
      isplitl [HS10]; · iexact HS10
      isplitl [HS11]; · iexact HS11
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h1 : t.val % 4 = 1
    · rw [Dat.leavesExact_idle (dats m 0 c) 5 t (idle5 t (by omega)) (noFlush5 t (by omega))]
      iintro ⟨⟨%d8, %d9, %d10, %d11, %hI, HS8, HS9, HS10, HS11, Hg⟩, Ho, ⟨%e0, H0⟩, ⟨%e1, H1⟩, ⟨%e2, H2⟩, ⟨%e3, H3⟩, ⟨%e4, H4⟩, H5⟩
      iapply (runSecond c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) (fun h => by have := (hcondReset t).mp h; omega) ((hcondTile t).mpr (by omega)) ((hcondStats t).mpr h1) (fun h => by have := (hcondOut t).mp h; omega)
        (4096 * (t.val % 4)) (hoffTile t (by omega)) (iblk m c 0 t) (iblk m c 1 t) (iblk m c 2 t) d8 d9 Set.univ _)
      isplitl [H0]; · iexact H0
      isplitl [H1]; · iexact H1
      isplitl [H2]; · iexact H2
      isplitl [HS8]; · iexact HS8
      isplitl [HS9]; · iexact HS9
      isplitl [HS10]; · iexists _; iexact HS10
      isplitl [HS11]; · iexists _; iexact HS11
      iintro ⟨H0, H1, H2, HS8, HS9, HS10, HS11⟩
      isplitl [HS8 HS9 HS10 HS11 Hg]
      · iexists (putRows d8 (4096 * (t.val % 4)) (k0_pay3 (iblk m c 0 t) (iblk m c 1 t) (iblk m c 2 t)))
        iexists (k0_pay4 (iblk m c 0 t) (iblk m c 1 t) (iblk m c 2 t) d9)
        iexists (k0_pay6 (k0_pay4 (iblk m c 0 t) (iblk m c 1 t) (iblk m c 2 t) d9))
        iexists (k0_pay7 (k0_pay4 (iblk m c 0 t) (iblk m c 1 t) (iblk m c 2 t) d9) (putRows d8 (4096 * (t.val % 4)) (k0_pay3 (iblk m c 0 t) (iblk m c 1 t) (iblk m c 2 t))))
        isplitr
        · ipureintro; exact inv_second m c t h1 d8 d9 d10 d11 hI
        isplitl [HS8]; · iexact HS8
        isplitl [HS9]; · iexact HS9
        isplitl [HS10]; · iexact HS10
        isplitl [HS11]; · iexact HS11
        iexact Hg
      isplitl [Ho]; · iexact Ho
      isplitl [H0]; · iexact H0
      isplitl [H1]; · iexact H1
      isplitl [H2]; · iexact H2
      isplitl [H3]; · iexact H3
      isplitl [H4]; · iexact H4
      iexact H5
    · have h2 : 2 ≤ t.val % 4 := by omega
      rw [leaves5 m c t h2]
      iintro ⟨⟨%d8, %d9, %d10, %d11, %hI, HS8, HS9, HS10, HS11, Hg⟩, Ho, ⟨%e0, H0⟩, ⟨%e1, H1⟩, ⟨%e2, H2⟩, ⟨%e3, H3⟩, ⟨%e4, H4⟩, ⟨%e5, H5⟩⟩
      iapply (runOut c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) (fun h => by have := (hcondReset t).mp h; omega) (fun h => by have := (hcondTile t).mp h; omega) (fun h => by have := (hcondStats t).mp h; omega) ((hcondOut t).mpr (by omega))
        (iblk m c 3 t) (iblk m c 4 t) d8 d10 d11 Set.univ _)
      isplitl [H3]; · iexact H3
      isplitl [H4]; · iexact H4
      isplitl [H5]; · iexists _; iexact H5
      isplitl [HS8]; · iexact HS8
      isplitl [HS10]; · iexact HS10
      isplitl [HS11]; · iexact HS11
      iintro ⟨H3, H4, H5, HS8, HS10, HS11⟩
      isplitl [HS8 HS9 HS10 HS11 Hg]
      · iexists d8
        iexists d9
        iexists d10
        iexists d11
        isplitr
        · ipureintro; exact (inv_out m c t h2 d8 d9 d10 d11 hI (k0_off2_inb (grid0.coords t) ((hcondOut t).mpr h2))).1
        isplitl [HS8]; · iexact HS8
        isplitl [HS9]; · iexact HS9
        isplitl [HS10]; · iexact HS10
        isplitl [HS11]; · iexact HS11
        iexact Hg
      isplitl [Ho]; · iexact Ho
      isplitl [H0]; · iexact H0
      isplitl [H1]; · iexact H1
      isplitl [H2]; · iexact H2
      isplitl [H3]; · iexact H3
      isplitl [H4]; · iexact H4
      rw [← (inv_out m c t h2 d8 d9 d10 d11 hI (k0_off2_inb (grid0.coords t) ((hcondOut t).mpr h2))).2]
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: the scratch operands at anything. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d8, HS8⟩, ⟨%d9, HS9⟩, ⟨%d10, HS10⟩, ⟨%d11, HS11⟩⟩, Hg⟩
  iexists d8; iexists d9; iexists d10; iexists d11
  isplitr
  · ipureintro; exact trivial
  isplitl [HS8]; · iexact HS8
  isplitl [HS9]; · iexact HS9
  isplitl [HS10]; · iexact HS10
  isplitl [HS11]; · iexact HS11
  iexact Hg

/-- After the last point the invariant gives back the region's own: what the scratch operands hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨%d8, %d9, %d10, %d11, -, HS8, HS9, HS10, HS11, Hg⟩
  isplitl [HS8 HS9 HS10 HS11]
  · isplitl [HS8]; · iexists _; iexact HS8
    isplitl [HS9]; · iexists _; iexact HS9
    isplitl [HS10]; · iexists _; iexact HS10
    iexists _; iexact HS11
  iexact Hg

/-! ## The run and the frame -/

set_option backward.isDefEq.respectTransparency.types false in
/-- Every weakly fair execution of the program terminates without a fault, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyIdeal.Common.lean ====
import proofs.«122771_j89094801588783_2_alg».proof.Proof.Gen.KernelIdeal.Frame
import proofs.«122771_j89094801588783_2_alg».proof.Proof.Gen.KernelIdeal.Skeleton
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four conditionals of the body, as propositions over the grid coordinates

The body branches on the second grid coordinate `n` (the position within a batch, 0 ≤ n < 4): `n = 0` (reset the running
sum), `n < 2` (the first phase: one tile of the affine layer is computed, stored into the batch-long scratch and added
to the running sum), `n = 1` (the batch's statistics are taken) and `n ≥ 2` (the second phase: one tile is normalized
and written out). -/

abbrev condReset (i : grid0.Coords) : Prop := (Scalar.cmpi .ne (Scalar.extui (Scalar.cmpi .eq (BitVec.ofNat 32 (i 1).val) 0#32)) 0#32) = 1#1
abbrev condTile (i : grid0.Coords) : Prop := k0_cond2 i = 1#1
abbrev condStats (i : grid0.Coords) : Prop := (Scalar.cmpi .ne (Scalar.extui (Scalar.cmpi .eq (BitVec.ofNat 32 (i 1).val) 1#32)) 0#32) = 1#1
abbrev condOut (i : grid0.Coords) : Prop := k0_cond4 i = 1#1

/-- The position within the batch is the point's number modulo 4; each condition decided over the 64 points. -/
theorem hcondReset : ∀ t : Fin cfg0.N, condReset (grid0.coords t) ↔ t.val % 4 = 0 :=
  (by decide +kernel : ∀ t : Fin grid0.N, condReset (grid0.coords t) ↔ t.val % 4 = 0)
theorem hcondTile : ∀ t : Fin cfg0.N, condTile (grid0.coords t) ↔ t.val % 4 < 2 :=
  (by decide +kernel : ∀ t : Fin grid0.N, condTile (grid0.coords t) ↔ t.val % 4 < 2)
theorem hcondStats : ∀ t : Fin cfg0.N, condStats (grid0.coords t) ↔ t.val % 4 = 1 :=
  (by decide +kernel : ∀ t : Fin grid0.N, condStats (grid0.coords t) ↔ t.val % 4 = 1)
theorem hcondOut : ∀ t : Fin cfg0.N, condOut (grid0.coords t) ↔ 2 ≤ t.val % 4 :=
  (by decide +kernel : ∀ t : Fin grid0.N, condOut (grid0.coords t) ↔ 2 ≤ t.val % 4)

/-- The row offset of the tile stored in the first phase is 4096 times the position. -/
theorem hoffTile : ∀ t : Fin cfg0.N, t.val % 4 < 2 → k0_off1 (grid0.coords t) = ![4096 * (t.val % 4), 0] :=
  (by decide +kernel : ∀ t : Fin grid0.N, t.val % 4 < 2 → k0_off1 (grid0.coords t) = ![4096 * (t.val % 4), 0])
/-- The row offset of the tile read back in the second phase is 4096 times the position less two. -/
theorem hoffOut : ∀ t : Fin cfg0.N, 2 ≤ t.val % 4 → k0_off2 (grid0.coords t) = ![4096 * (t.val % 4 - 2), 0] :=
  (by decide +kernel : ∀ t : Fin grid0.N, 2 ≤ t.val % 4 → k0_off2 (grid0.coords t) = ![4096 * (t.val % 4 - 2), 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- In the first phase nothing is stored into the output window, -/
theorem idle5 : ∀ t : Fin cfg0.N, t.val % 4 < 2 → cfg0.idle 5 (grid0.coords t) = true := by decide +kernel
/-- and its block is not written back there; -/
theorem noFlush5 : ∀ t : Fin cfg0.N, t.val % 4 < 2 → (cfg0.win 5).flush t = false := by decide +kernel
/-- in the second phase it is stored whole. -/
theorem live5 : ∀ t : Fin cfg0.N, 2 ≤ t.val % 4 → cfg0.idle 5 (grid0.coords t) = false := by decide +kernel

/-! ## Rows of the batch-long scratch -/

/-- The contents of the batch-long scratch after 4096 whole rows, from row `o` on, are overwritten by the tile `w`. -/
def putRows (d : Vec F S8192x256 .f32) (o : ℕ) (w : Vec F S4096x256 .f32) : Vec F S8192x256 .f32 := fun y =>
  if h : o ≤ (y (0 : Fin 2)).val ∧ (y (0 : Fin 2)).val < o + 4096 then
    w (Rect.unitLocal (s := S8192x256) (off := ![o, 0]) (size := S4096x256.size) y (Rect.unit_rows_mem y rfl rfl h))
  else d y

/-- One store of a tile through the rectangle of 4096 whole rows at row offset `o` leaves `putRows`. -/
theorem read_store_rows {κ : Kind} (v : View sig κ .vmem S8192x256 .f32) (f : v.ty.Contents (Elt F)) (off : Fin 2 → ℕ)
    (inb : ∀ a, off a + S4096x256.size a ≤ S8192x256.size a) (w : Vec F S4096x256 .f32) (o : ℕ) (hoff : off = ![o, 0]) :
    v.read (Elt F) (v.writes (Elt F) f [(⟨Rect.unit (s := S8192x256) off S4096x256.size inb, w⟩ : View.Piece (Elt F) S8192x256 .f32)])
      = putRows (v.read (Elt F) f) o w := by
  funext y
  rw [View.read_writes_cons_rows v f inb w [] y hoff (W := 4096) rfl rfl]
  unfold putRows
  simp only [View.writes_nil]

/-- The zero offset of each rank-1, rank-2 and rank-3 shape used here, as the constant-zero function. -/
theorem hz1 : (![0] : Fin S256.rank → ℕ) = fun _ => 0 := by funext a; fin_cases a; rfl
theorem hz2 : (![0, 0] : Fin S1x256.rank → ℕ) = fun _ => 0 := by funext a; fin_cases a <;> rfl
theorem hz2w : (![0, 0] : Fin S256x256.rank → ℕ) = fun _ => 0 := by funext a; fin_cases a <;> rfl
theorem hz2d : (![0, 0] : Fin S8192x256.rank → ℕ) = fun _ => 0 := by funext a; fin_cases a <;> rfl
theorem hz3 : (![0, 0, 0] : Fin S1x4096x256.rank → ℕ) = fun _ => 0 := by funext a; fin_cases a <;> rfl

/-- What one store through the whole-shape rectangle leaves is its payload. -/
theorem read_store_whole {S : Shape} {κ : Kind} (v : View sig κ .vmem S .f32) (f : v.ty.Contents (Elt F)) {off : Fin S.rank → ℕ}
    (h : off = fun _ => 0) (inb : ∀ a, off a + S.size a ≤ S.size a) (w : Vec F S .f32) (L : List (View.Piece (Elt F) S .f32)) :
    v.read (Elt F) (v.writes (Elt F) f ((⟨Rect.unit off S.size inb, w⟩ : View.Piece (Elt F) S .f32) :: L)) = w := by
  rw [View.read_writes_eq_canon v f _ (fun y => ⟨_, List.mem_cons_self, View.mem_set_unit_zero h inb y⟩),
    View.canon_cons_unit_zero h]

end Cert.KernelIdeal.Body

end
-- ==== Proof.BodyIdeal.CaseFirst.lean ====
import proofs.«122771_j89094801588783_2_alg».proof.Proof.BodyIdeal.Common

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point of a batch (`n = 0`): the running sum is reset to zero, the first tile of the affine layer is computed
    from the point's block of `x`, the transposed weights and the bias, stored into rows `[o, o + 4096)` of the batch-long
    scratch, and its column sums are added to the running sum. -/
theorem runFirst (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : condReset i) (hc1 : condTile i) (hc2 : ¬condStats i) (hc3 : ¬condOut i)
    (o : ℕ) (ho : k0_off1 i = ![o, 0])
    (x2 : Vec F S1x4096x256 .f32) (x3 : Vec F S256x256 .f32) (x4 : Vec F S256 .f32) (d8 : Vec F S8192x256 .f32) (d9 : Vec F S1x256 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg8 fullShare d8 ∗ owns (c : Thread nD τ) arg9 fullShare d9
        ∗ (iprop(owns (c : Thread nD τ) arg2 fullShare x2 ∗ owns (c : Thread nD τ) arg3 fullShare x3 ∗ owns (c : Thread nD τ) arg4 fullShare x4
            ∗ owns (c : Thread nD τ) arg8 fullShare (putRows d8 o (k0_pay3 x2 x3 x4))
            ∗ owns (c : Thread nD τ) arg9 fullShare (k0_pay4 x2 x3 x4 (k0_pay1 (F := F)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    rw [read_store_rows _ _ _ _ _ o ho]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf8]
  iexists _; isplitr
  swap; · iexact H9
  ipureintro
  unfold runFirst.sl.v27 runFirst.sl.H9_1
  rw [read_store_whole _ _ hz2]
  simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9, View.readCov_unit_zero (S := S1x256) _ hz2]

end Cert.KernelIdeal.Body

end
-- ==== Proof.BodyIdeal.CaseSecond.lean ====
import proofs.«122771_j89094801588783_2_alg».proof.Proof.BodyIdeal.Common

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The second point of a batch (`n = 1`): the second tile is computed and stored into rows `[o, o + 4096)` of the batch-long
    scratch and its column sums are added to the running sum; then the batch's mean row is the running sum times 1/8192, and
    its variance row the column sums of the squared deviations of the WHOLE scratch from the mean, divided by 8192. -/
theorem runSecond (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : ¬condReset i) (hc1 : condTile i) (hc2 : condStats i) (hc3 : ¬condOut i)
    (o : ℕ) (ho : k0_off1 i = ![o, 0])
    (x2 : Vec F S1x4096x256 .f32) (x3 : Vec F S256x256 .f32) (x4 : Vec F S256 .f32) (d8 : Vec F S8192x256 .f32) (d9 : Vec F S1x256 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg8 fullShare d8 ∗ owns (c : Thread nD τ) arg9 fullShare d9
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4
            ∗ owns (c : Thread nD τ) arg8 fullShare (putRows d8 o (k0_pay3 x2 x3 x4))
            ∗ owns (c : Thread nD τ) arg9 fullShare (k0_pay4 x2 x3 x4 d9)
            ∗ owns (c : Thread nD τ) arg10 fullShare (k0_pay6 (k0_pay4 x2 x3 x4 d9))
            ∗ owns (c : Thread nD τ) arg11 fullShare (k0_pay7 (k0_pay4 x2 x3 x4 d9) (putRows d8 o (k0_pay3 x2 x3 x4)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1 | exact hc2 | exact hc3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H8]
  · iexists _; isplitr
    swap; · iexact H8
    ipureintro
    unfold runSecond.sl.H8_1
    rw [read_store_rows _ _ _ _ _ o ho]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf8]
  isplitl [H9]
  · iexists _; isplitr
    swap; · iexact H9
    ipureintro
    unfold runSecond.sl.H9_1
    rw [read_store_whole _ _ hz2]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  isplitl [H10]
  · iexists _; isplitr
    swap; · iexact H10
    ipureintro
    rw [read_store_whole _ _ hz2]
    unfold runSecond.sl.v12
    try unfold runSecond.sl.H9_1
    rw [View.readCov_unit_zero (S := S1x256) _ hz2]
    simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  iexists _; isplitr
  swap; · iexact H11
  ipureintro
  rw [read_store_whole _ _ hz2]
  unfold runSecond.sl.v12 runSecond.sl.v15
  try unfold runSecond.sl.H9_1
  try unfold runSecond.sl.H8_1
  rw [View.readCov_unit_zero (S := S1x256) _ hz2]
  simp only [View.readAt_eq_ld, hf2, hf3, hf4, View.ld_unit_zero (S := S1x4096x256) hz3, View.ld_unit_zero (S := S256x256) hz2w, View.ld_unit_zero (S := S256) hz1, View.ld_unit_zero (S := S1x256) hz2, View.ld_unit_zero (S := S8192x256) hz2d, hf9]
  rw [read_store_rows _ _ _ _ _ o ho, hf8]

end Cert.KernelIdeal.Body

end
-- ==== Proof.BodyIdeal.CaseOut.lean ====
import proofs.«122771_j89094801588783_2_alg».proof.Proof.BodyIdeal.Common

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The second phase (`n ≥ 2`): the tile at rows `[4096 (n − 2), 4096 (n − 1))` of the batch-long scratch is read back, centred by the
    mean row, scaled by the reciprocal root of the variance row plus ε, then by γ, shifted by β, and stored whole into the
    output window; the scratch and the scale and shift vectors are left as found. -/
theorem runOut (c : Dev nD) (i : grid0.Coords)
    (arg2 : Memref sig .tc .vmem S1x4096x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S256 .f32) (harg6 : arg6.IsWhole) (arg7 : Memref sig .tc .vmem S1x4096x256 .f32) (harg7 : arg7.IsWhole)
    (arg8 : Memref sig .tc .vmem S8192x256 .f32) (harg8 : arg8.IsWhole) (arg9 : Memref sig .tc .vmem S1x256 .f32) (harg9 : arg9.IsWhole)
    (arg10 : Memref sig .tc .vmem S1x256 .f32) (harg10 : arg10.IsWhole) (arg11 : Memref sig .tc .vmem S1x256 .f32) (harg11 : arg11.IsWhole)
    (hc0 : ¬condReset i) (hc1 : ¬condTile i) (hc2 : ¬condStats i) (hc3 : condOut i)
    (x5 x6 : Vec F S256 .f32) (d8 : Vec F S8192x256 .f32) (d10 d11 : Vec F S1x256 .f32)
    (E : Set ℕ) (K : PUnit → sProp 𝕄) :
    iprop(owns (c : Thread nD τ) arg5 fullShare x5 ∗ owns (c : Thread nD τ) arg6 fullShare x6
        ∗ (∃ d, owns (c : Thread nD τ) arg7 fullShare d)
        ∗ owns (c : Thread nD τ) arg8 fullShare d8 ∗ owns (c : Thread nD τ) arg10 fullShare d10 ∗ owns (c : Thread nD τ) arg11 fullShare d11
        ∗ (iprop(owns (c : Thread nD τ) arg5 fullShare x5 ∗ owns (c : Thread nD τ) arg6 fullShare x6
            ∗ owns (c : Thread nD τ) arg7 fullShare (k0_pay8 (View.ld d8 (Rect.unit (s := S8192x256) (k0_off2 i) S4096x256.size (k0_off2_inb i hc3))) d11 d10 x5 x6)
            ∗ owns (c : Thread nD τ) arg8 fullShare d8 ∗ owns (c : Thread nD τ) arg10 fullShare d10 ∗ owns (c : Thread nD τ) arg11 fullShare d11) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f5, %hf5, H5⟩, ⟨%f6, %hf6, H6⟩, ⟨%d7, %f7, -, H7⟩, ⟨%f8, %hf8, H8⟩, ⟨%f10, %hf10, H10⟩, ⟨%f11, %hf11, H11⟩, Hk⟩
  obtain rfl := harg5.eq_unread hf5; obtain rfl := harg6.eq_unread hf6; obtain rfl := harg8.eq_unread hf8
  obtain rfl := harg10.eq_unread hf10; obtain rfl := harg11.eq_unread hf11
  sl_exec (disch := first | exact hc0 | exact hc1 | exact hc2 | exact hc3)
  sl_step
  iapply Hk
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [read_store_whole _ _ hz3]
    simp only [View.readAt_eq_ld, hf5, hf6, hf8, hf10, hf11, View.ld_unit_zero (S := S1x256) hz2, View.ld_unit_zero (S := S256) hz1]
  isplitl [H8]
  · iexists _; isplitr; · ipureintro; exact hf8
    iexact H8
  isplitl [H10]
  · iexists _; isplitr; · ipureintro; exact hf10
    iexact H10
  iexists _; isplitr; · ipureintro; exact hf11
  iexact H11

end Cert.KernelIdeal.Body

end
-- ==== Proof.BodyIdeal.Rows.lean ====
import proofs.«122771_j89094801588783_2_alg».proof.Proof.BodyIdeal.Common
import Idealize.ShloMosaic.Lib.ValueIdx

/-
  Rows of the batch-long scratch: what a load of 4096 whole rows reads after a tile has been stored over 4096 whole rows,
  and the contents of the whole scratch, 8192 rows, as the two tiles laid one after the other.

  A load through the unit-stride rectangle of 4096 whole rows at row offset o reads the element (o + r, c) of the
  contents at its own (r, c). After the tile w has been stored over the rows o, …, o + 4095, the element (R, c) is
  w at (R − o, c) when o ≤ R < o + 4096 and the old contents otherwise. So the load at the same offset reads w back,
  and the load of the rows 0, …, 4095 after a store over the rows 4096, …, 8191 reads what it read before.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The two rectangles of 4096 whole rows -/

/-- The rows 0, …, 4095 and every column lie inside the 8192 × 256 scratch. -/
theorem inbRows0 : ∀ a : Fin 2, (![0, 0] : Fin 2 → ℕ) a + S4096x256.size a ≤ S8192x256.size a := by decide
/-- The rows 4096, …, 8191 and every column lie inside the 8192 × 256 scratch. -/
theorem inbRows1 : ∀ a : Fin 2, (![4096, 0] : Fin 2 → ℕ) a + S4096x256.size a ≤ S8192x256.size a := by decide

/-- The first 4096 rows. -/
abbrev rows0 : Rect S8192x256 := Rect.unit (s := S8192x256) ![0, 0] S4096x256.size inbRows0
/-- The last 4096 rows. -/
abbrev rows1 : Rect S8192x256 := Rect.unit (s := S8192x256) ![4096, 0] S4096x256.size inbRows1

/-- A load through a rectangle of 4096 whole rows depends on the rectangle's offsets only. -/
theorem ld_rows_congr (d : Vec F S8192x256 .f32) (off : Fin 2 → ℕ) (inb : ∀ a, off a + S4096x256.size a ≤ S8192x256.size a) (o : ℕ)
    (inb' : ∀ a, (![o, 0] : Fin 2 → ℕ) a + S4096x256.size a ≤ S8192x256.size a) (h : off = ![o, 0]) :
    View.ld d (Rect.unit (s := S8192x256) off S4096x256.size inb) = View.ld d (Rect.unit (s := S8192x256) ![o, 0] S4096x256.size inb') := by
  subst h; rfl

/-! ## A load after a store -/

/-- The load of the 4096 rows from row o on, after the tile w has been stored over those rows, reads w. -/
theorem ld_putRows_same (d : Vec F S8192x256 .f32) (w : Vec F S4096x256 .f32) (o : ℕ)
    (inb : ∀ a, (![o, 0] : Fin 2 → ℕ) a + S4096x256.size a ≤ S8192x256.size a) :
    View.ld (putRows d o w) (Rect.unit (s := S8192x256) ![o, 0] S4096x256.size inb) = w := by
  funext x
  show putRows d o w ((Rect.unit (s := S8192x256) ![o, 0] S4096x256.size inb).idx x) = w x
  have hx : (x (0 : Fin 2)).val < 4096 := (x (0 : Fin 2)).isLt
  have h0 : (((Rect.unit (s := S8192x256) ![o, 0] S4096x256.size inb).idx x) (0 : Fin 2)).val = o + 1 * (x (0 : Fin 2)).val := rfl
  unfold putRows
  rw [dif_pos ⟨by omega, by omega⟩]
  refine congrArg w (funext fun a => Fin.ext ?_)
  rw [Rect.unitLocal_val]
  show (![o, 0] : Fin 2 → ℕ) a + 1 * (x a).val - (![o, 0] : Fin 2 → ℕ) a = (x a).val
  omega

theorem ld_putRows_rows0 (d : Vec F S8192x256 .f32) (w : Vec F S4096x256 .f32) : View.ld (putRows d 0 w) rows0 = w :=
  ld_putRows_same d w 0 inbRows0

theorem ld_putRows_rows1 (d : Vec F S8192x256 .f32) (w : Vec F S4096x256 .f32) : View.ld (putRows d 4096 w) rows1 = w :=
  ld_putRows_same d w 4096 inbRows1

/-- The load of the first 4096 rows is not changed by a store over the last 4096 rows. -/
theorem ld_putRows_other (d : Vec F S8192x256 .f32) (w : Vec F S4096x256 .f32) : View.ld (putRows d 4096 w) rows0 = View.ld d rows0 := by
  funext x
  show putRows d 4096 w (rows0.idx x) = d (rows0.idx x)
  have hx : (x (0 : Fin 2)).val < 4096 := (x (0 : Fin 2)).isLt
  have h0 : ((rows0.idx x) (0 : Fin 2)).val = 0 + 1 * (x (0 : Fin 2)).val := rfl
  unfold putRows
  rw [dif_neg (by omega)]

/-! ## The whole scratch as two tiles -/

/-- The 8192 × 256 contents whose first 4096 rows are y0 and whose last 4096 rows are y1. -/
def glue (y0 y1 : Vec F S4096x256 .f32) : Vec F S8192x256 .f32 := putRows (putRows (fun _ => @Classical.arbitrary (Elt F .f32) (Elt.nonempty F .f32)) 0 y0) 4096 y1

/-- Every row of the scratch is one of the first 4096 or one of the last 4096: after a store over the last 4096 rows the
    contents are the first 4096 rows as they were, followed by the tile stored. -/
theorem putRows_eq_glue (d : Vec F S8192x256 .f32) (w : Vec F S4096x256 .f32) : putRows d 4096 w = glue (View.ld d rows0) w := by
  funext y
  have hy : (y (0 : Fin 2)).val < 8192 := (y (0 : Fin 2)).isLt
  unfold glue putRows
  by_cases h : 4096 ≤ (y (0 : Fin 2)).val ∧ (y (0 : Fin 2)).val < 4096 + 4096
  · rw [dif_pos h, dif_pos h]
  · have h' : 0 ≤ (y (0 : Fin 2)).val ∧ (y (0 : Fin 2)).val < 0 + 4096 := ⟨Nat.zero_le _, by omega⟩
    rw [dif_neg h, dif_neg h, dif_pos h']
    show d y = d (rows0.idx _)
    refine congrArg d (funext fun a => Fin.ext ?_)
    have ha := Rect.unit_rows_mem (size := S4096x256.size) (W := 4096) y rfl rfl h' a
    show (y a).val = (![0, 0] : Fin 2 → ℕ) a + 1 * ((y a).val - (![0, 0] : Fin 2 → ℕ) a)
    omega

/-- The first 4096 rows of the two tiles laid one after the other are the first tile. -/
theorem glue_at0 (y0 y1 : Vec F S4096x256 .f32) (r : Fin 4096) (o : Fin 256) :
    glue y0 y1 (ix2 (⟨r.val, by omega⟩ : Fin 8192) o) = y0 (ix2 r o) := by
  have hr : r.val < 4096 := r.isLt
  have h0 : ((ix2 (⟨r.val, by omega⟩ : Fin 8192) o : S8192x256.Idx) (0 : Fin 2)).val = r.val := rfl
  unfold glue putRows
  rw [dif_neg (by omega), dif_pos ⟨by omega, by omega⟩]
  refine congrArg y0 (funext fun a => Fin.ext ?_)
  rw [Rect.unitLocal_val]
  match a with
  | ⟨0, _⟩ => rfl
  | ⟨1, _⟩ => rfl

/-- The last 4096 rows of the two tiles laid one after the other are the second tile. -/
theorem glue_at1 (y0 y1 : Vec F S4096x256 .f32) (r : Fin 4096) (o : Fin 256) :
    glue y0 y1 (ix2 (⟨4096 + r.val, by omega⟩ : Fin 8192) o) = y1 (ix2 r o) := by
  have hr : r.val < 4096 := r.isLt
  have h0 : ((ix2 (⟨4096 + r.val, by omega⟩ : Fin 8192) o : S8192x256.Idx) (0 : Fin 2)).val = 4096 + r.val := rfl
  unfold glue putRows
  rw [dif_pos ⟨by omega, by omega⟩]
  refine congrArg y1 (funext fun a => Fin.ext ?_)
  rw [Rect.unitLocal_val]
  match a with
  | ⟨0, _⟩ => show 4096 + r.val - 4096 = r.val; omega
  | ⟨1, _⟩ => rfl

end Cert.KernelIdeal.Body

end
-- ==== Proof.BodyIdeal.State.lean ====
import proofs.«122771_j89094801588783_2_alg».proof.Proof.BodyIdeal.CaseFirst
import proofs.«122771_j89094801588783_2_alg».proof.Proof.BodyIdeal.CaseSecond
import proofs.«122771_j89094801588783_2_alg».proof.Proof.BodyIdeal.CaseOut
import proofs.«122771_j89094801588783_2_alg».proof.Proof.BodyIdeal.Rows

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S1x4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4096x256 .f32 := win0_5.stage (cfg0.slots t 5)
abbrev hs5 (t : Fin cfg0.N) : (ms5 t).IsWhole := hstage0_5 ((cfg0.slots t 5).cast nbuf0_5)
/-- The four scratch operands: the batch-long copy of the affine layer, the running sum, the mean row, the variance row. -/
abbrev sc8 : Memref sig .tc .vmem S8192x256 .f32 := Memref.whole cc0_scratch0
abbrev sc9 : Memref sig .tc .vmem S1x256 .f32 := Memref.whole cc0_scratch1
abbrev sc10 : Memref sig .tc .vmem S1x256 .f32 := Memref.whole cc0_scratch2
abbrev sc11 : Memref sig .tc .vmem S1x256 .f32 := Memref.whole cc0_scratch3

/-- The region's invariant with the scratch operands as memrefs owned at some contents. -/
theorem PhiA_eq (c : Dev nD) :
    (Pipeline.ΦA spec0 c : sProp 𝕄)
      = iprop(iprop((∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc8, sc9, sc10, sc11, owns_whole]; try rfl

/-! ## What the scratch operands hold after each point

Within a batch (four consecutive points) the first point computes the first tile `y0` of the affine layer and starts the running
sum `s`; the second computes the second tile `y1`, completes the sum, and takes the mean row `mn` and the variance row `vr` of the
whole batch (both tiles); the third and fourth change nothing. What a component holds before it is first written is never used. -/

structure St (F : FTy → Type) [FloatOps F] where
  y0 : Vec F S4096x256 .f32
  y1 : Vec F S4096x256 .f32
  s : Vec F S1x256 .f32
  mn : Vec F S1x256 .f32
  vr : Vec F S1x256 .f32

def junkSt : St F :=
  let j : Elt F .f32 := @Classical.arbitrary (Elt F .f32) (Elt.nonempty F .f32)
  ⟨fun _ => j, fun _ => j, fun _ => j, fun _ => j, fun _ => j⟩

/-- One point's effect on the tracked values, from the point's blocks of `x`, of the transposed weights and of the bias. -/
def step (c : Dev nD) (t : Fin cfg0.N) (p : St F) : St F :=
  if t.val % 4 = 0 then
    ⟨k0_pay3 (iblk m c 0 t) (iblk m c 1 t) (iblk m c 2 t), p.y1, k0_pay4 (iblk m c 0 t) (iblk m c 1 t) (iblk m c 2 t) (k0_pay1 (F := F)), p.mn, p.vr⟩
  else if t.val % 4 = 1 then
    ⟨p.y0, k0_pay3 (iblk m c 0 t) (iblk m c 1 t) (iblk m c 2 t), k0_pay4 (iblk m c 0 t) (iblk m c 1 t) (iblk m c 2 t) p.s, k0_pay6 (k0_pay4 (iblk m c 0 t) (iblk m c 1 t) (iblk m c 2 t) p.s),
      k0_pay7 (k0_pay4 (iblk m c 0 t) (iblk m c 1 t) (iblk m c 2 t) p.s) (glue p.y0 (k0_pay3 (iblk m c 0 t) (iblk m c 1 t) (iblk m c 2 t)))⟩
  else p

/-- The tracked values after point `n`. -/
def stAt (c : Dev nD) : (n : ℕ) → n < cfg0.N → St F
  | 0, h => step m c ⟨0, h⟩ junkSt
  | n + 1, h => step m c ⟨n + 1, h⟩ (stAt c n (Nat.lt_of_succ_lt h))

/-- The tracked values before point `t`. -/
def prevSt (c : Dev nD) (t : Fin cfg0.N) : St F :=
  if h : t.val = 0 then junkSt else stAt m c (t.val - 1) (by have := t.isLt; omega)

theorem stAt_eq (c : Dev nD) (t : Fin cfg0.N) : stAt m c t.val t.isLt = step m c t (prevSt m c t) := by
  obtain ⟨n, hn⟩ := t
  cases n with
  | zero => rfl
  | succ n => unfold prevSt; rw [dif_neg (Nat.succ_ne_zero n)]; rfl

/-- What is known of the scratch contents after point `t`: the first 4096 rows of the batch-long scratch are the first tile
    and the running sum is the tracked one; from the batch's second point on, also the last 4096 rows are the second tile and
    the mean and variance rows are the tracked ones. -/
def Inv (c : Dev nD) (t : Fin cfg0.N) (d8 : Vec F S8192x256 .f32) (d9 d10 d11 : Vec F S1x256 .f32) : Prop :=
  View.ld d8 rows0 = (stAt m c t.val t.isLt).y0 ∧ d9 = (stAt m c t.val t.isLt).s ∧
    (1 ≤ t.val % 4 → View.ld d8 rows1 = (stAt m c t.val t.isLt).y1 ∧ d10 = (stAt m c t.val t.isLt).mn ∧ d11 = (stAt m c t.val t.isLt).vr)

/-- The same before position `n`: nothing before the first point. -/
def InvB (c : Dev nD) : (n : ℕ) → n ≤ cfg0.N → Vec F S8192x256 .f32 → Vec F S1x256 .f32 → Vec F S1x256 .f32 → Vec F S1x256 .f32 → Prop
  | 0, _ => fun _ _ _ _ => True
  | n + 1, h => Inv m c ⟨n, h⟩

/-- The region invariant before position `n`: the four scratch operands at contents of which `InvB` holds, and the generator
    register at some state. -/
def PhiS (c : Dev nD) (n : ℕ) (hn : n ≤ cfg0.N) : sProp 𝕄 :=
  iprop(∃ d8 : Vec F S8192x256 .f32, ∃ d9 : Vec F S1x256 .f32, ∃ d10 : Vec F S1x256 .f32, ∃ d11 : Vec F S1x256 .f32,
    ⌜InvB m c n hn d8 d9 d10 d11⌝ ∗ owns (c : Thread nD τ) sc8 fullShare d8 ∗ owns (c : Thread nD τ) sc9 fullShare d9
      ∗ owns (c : Thread nD τ) sc10 fullShare d10 ∗ owns (c : Thread nD τ) sc11 fullShare d11 ∗ (∃ r, prngReg c r))

/-- What the output window's staging buffer holds after the body at a point of the second phase: the tile of that point
    (the first at position 2, the second at position 3) normalized by the batch's mean and variance rows, scaled and shifted. -/
def outAt (c : Dev nD) (t : Fin cfg0.N) : Vec F S1x4096x256 .f32 :=
  k0_pay8 (if t.val % 4 = 2 then (stAt m c t.val t.isLt).y0 else (stAt m c t.val t.isLt).y1)
    (stAt m c t.val t.isLt).vr (stAt m c t.val t.isLt).mn (iblk m c 3 t) (iblk m c 4 t)

/-! ## The invariant is kept -/

theorem inv_first (c : Dev nD) (t : Fin cfg0.N) (h0 : t.val % 4 = 0) (d8 : Vec F S8192x256 .f32) (d10 d11 : Vec F S1x256 .f32) :
    Inv m c t (putRows d8 (4096 * (t.val % 4)) (k0_pay3 (iblk m c 0 t) (iblk m c 1 t) (iblk m c 2 t))) (k0_pay4 (iblk m c 0 t) (iblk m c 1 t) (iblk m c 2 t) (k0_pay1 (F := F))) d10 d11 := by
  have hs := stAt_eq m c t
  unfold step at hs; rw [if_pos h0] at hs
  refine ⟨?_, ?_, fun h1 => by omega⟩
  · rw [hs, show 4096 * (t.val % 4) = 0 from by omega]; exact ld_putRows_rows0 _ _
  · rw [hs]

theorem InvB_pos (c : Dev nD) (n : ℕ) (hn : n ≤ cfg0.N) (hz : n ≠ 0) (d8 : Vec F S8192x256 .f32) (d9 d10 d11 : Vec F S1x256 .f32) :
    InvB m c n hn d8 d9 d10 d11 = Inv m c ⟨n - 1, by omega⟩ d8 d9 d10 d11 := by
  cases n with
  | zero => exact absurd rfl hz
  | succ n => rfl

theorem prevSt_pos (c : Dev nD) (t : Fin cfg0.N) (hz : t.val ≠ 0) :
    prevSt m c t = stAt m c (t.val - 1) (by have := t.isLt; omega) := by
  unfold prevSt; rw [dif_neg hz]

/-- A load of 4096 whole rows at a row offset that is 0, or 4096, is the first, or the second, half. -/
theorem ld_rows_at0 (d : Vec F S8192x256 .f32) (off : Fin 2 → ℕ) (inb : ∀ a, off a + S4096x256.size a ≤ S8192x256.size a) (o : ℕ)
    (h : off = ![o, 0]) (ho : o = 0) : View.ld d (Rect.unit (s := S8192x256) off S4096x256.size inb) = View.ld d rows0 := by
  subst ho; subst h; rfl
theorem ld_rows_at1 (d : Vec F S8192x256 .f32) (off : Fin 2 → ℕ) (inb : ∀ a, off a + S4096x256.size a ≤ S8192x256.size a) (o : ℕ)
    (h : off = ![o, 0]) (ho : o = 4096) : View.ld d (Rect.unit (s := S8192x256) off S4096x256.size inb) = View.ld d rows1 := by
  subst ho; subst h; rfl

theorem inv_second (c : Dev nD) (t : Fin cfg0.N) (h1 : t.val % 4 = 1) (d8 : Vec F S8192x256 .f32) (d9 e10 e11 : Vec F S1x256 .f32)
    (hp : InvB m c t.val (Nat.le_of_lt t.isLt) d8 d9 e10 e11) :
    Inv m c t (putRows d8 (4096 * (t.val % 4)) (k0_pay3 (iblk m c 0 t) (iblk m c 1 t) (iblk m c 2 t))) (k0_pay4 (iblk m c 0 t) (iblk m c 1 t) (iblk m c 2 t) d9)
      (k0_pay6 (k0_pay4 (iblk m c 0 t) (iblk m c 1 t) (iblk m c 2 t) d9)) (k0_pay7 (k0_pay4 (iblk m c 0 t) (iblk m c 1 t) (iblk m c 2 t) d9) (putRows d8 (4096 * (t.val % 4)) (k0_pay3 (iblk m c 0 t) (iblk m c 1 t) (iblk m c 2 t)))) := by
  have hz : t.val ≠ 0 := by omega
  have hs := stAt_eq m c t
  unfold step at hs; rw [if_neg (by omega), if_pos h1, prevSt_pos m c t hz] at hs
  rw [InvB_pos m c _ _ hz] at hp
  obtain ⟨p0, p1, -⟩ := hp
  have e4 : 4096 * (t.val % 4) = 4096 := by omega
  rw [e4]
  refine ⟨?_, ?_, fun _ => ⟨?_, ?_, ?_⟩⟩
  · rw [hs, ld_putRows_other]; exact p0
  · rw [hs]; exact congrArg _ p1
  · rw [hs]; exact ld_putRows_rows1 _ _
  · rw [hs]; exact congrArg (fun z => k0_pay6 (k0_pay4 (iblk m c 0 t) (iblk m c 1 t) (iblk m c 2 t) z)) p1
  · rw [hs, putRows_eq_glue, p0, p1]

theorem inv_out (c : Dev nD) (t : Fin cfg0.N) (h2 : 2 ≤ t.val % 4) (d8 : Vec F S8192x256 .f32) (d9 d10 d11 : Vec F S1x256 .f32)
    (hp : InvB m c t.val (Nat.le_of_lt t.isLt) d8 d9 d10 d11)
    (inb : ∀ a, k0_off2 (grid0.coords t) a + S4096x256.size a ≤ S8192x256.size a) :
    Inv m c t d8 d9 d10 d11
      ∧ k0_pay8 (View.ld d8 (Rect.unit (s := S8192x256) (k0_off2 (grid0.coords t)) S4096x256.size inb)) d11 d10 (iblk m c 3 t) (iblk m c 4 t)
          = outAt m c t := by
  have hz : t.val ≠ 0 := by omega
  have hs := stAt_eq m c t
  unfold step at hs; rw [if_neg (by omega), if_neg (by omega), prevSt_pos m c t hz] at hs
  have hoff := hoffOut t h2
  rw [InvB_pos m c _ _ hz] at hp
  obtain ⟨p0, p1, p2⟩ := hp
  obtain ⟨q0, q1, q2⟩ := p2 (show 1 ≤ (t.val - 1) % 4 by omega)
  refine ⟨⟨?_, ?_, fun _ => ⟨?_, ?_, ?_⟩⟩, ?_⟩
  · rw [hs]; exact p0
  · rw [hs]; exact p1
  · rw [hs]; exact q0
  · rw [hs]; exact q1
  · rw [hs]; exact q2
  · unfold outAt
    rw [hs, ← q1, ← q2]
    by_cases h3 : t.val % 4 = 2
    · rw [if_pos h3, ← p0, ld_rows_at0 d8 _ inb _ hoff (by omega)]
    · rw [if_neg h3, ← q0, ld_rows_at1 d8 _ inb _ hoff (by omega)]

end Cert.KernelIdeal.Body

end
-- ==== Proof.BodyIdeal.Run.lean ====
import proofs.«122771_j89094801588783_2_alg».proof.Proof.BodyIdeal.State

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- An input's buffer is handed back holding its block. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
/-- In the second phase the output's buffer is handed back holding `outAt`. -/
theorem leaves5 (c : Dev nD) (t : Fin cfg0.N) (h2 : 2 ≤ t.val % 4) : (dats m 0 c).leavesExact 5 t = owns (c : Thread nD τ) (ms5 t) fullShare (outAt m c t) := by
  unfold Dat.leavesExact; rw [live5 t h2, after5]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The point's position within its batch selects the case; the invariant hands the body the scratch
    operands at contents of which `InvB` holds and takes them back at contents of which the next `InvB` holds; in the first phase
    the output's buffer is handed back untouched, in the second it is stored whole; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0 m c, before1 m c, before2 m c, before3 m c, before4 m c]
  rw [show (dats m 0 c).owesAt () t.succ = (dats m 0 c).owesAt () t.castSucc from rfl]
  rw [show (dats m 0 c).Φ t.succ = PhiS m c (t.val + 1) t.isLt from rfl, Phi_castSucc m c t]
  rw [leaves0 m c t, leaves1 m c t, leaves2 m c t, leaves3 m c t, leaves4 m c t]
  have hN : t.val < 64 := lt_of_lt_of_eq t.isLt N_0
  unfold PhiS
  by_cases h0 : t.val % 4 = 0
  · rw [Dat.leavesExact_idle (dats m 0 c) 5 t (idle5 t (by omega)) (noFlush5 t (by omega))]
    iintro ⟨⟨%d8, %d9, %d10, %d11, -, HS8, HS9, HS10, HS11, Hg⟩, Ho, ⟨%e0, H0⟩, ⟨%e1, H1⟩, ⟨%e2, H2⟩, ⟨%e3, H3⟩, ⟨%e4, H4⟩, H5⟩
    iapply (runFirst c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) ((hcondReset t).mpr h0) ((hcondTile t).mpr (by omega)) (fun h => by have := (hcondStats t).mp h; omega) (fun h => by have := (hcondOut t).mp h; omega)
      (4096 * (t.val % 4)) (hoffTile t (by omega)) (iblk m c 0 t) (iblk m c 1 t) (iblk m c 2 t) d8 d9 Set.univ _)
    isplitl [H0]; · iexact H0
    isplitl [H1]; · iexact H1
    isplitl [H2]; · iexact H2
    isplitl [HS8]; · iexact HS8
    isplitl [HS9]; · iexact HS9
    iintro ⟨H0, H1, H2, HS8, HS9⟩
    isplitl [HS8 HS9 HS10 HS11 Hg]
    · iexists (putRows d8 (4096 * (t.val % 4)) (k0_pay3 (iblk m c 0 t) (iblk m c 1 t) (iblk m c 2 t)))
      iexists (k0_pay4 (iblk m c 0 t) (iblk m c 1 t) (iblk m c 2 t) (k0_pay1 (F := F)))
      iexists d10
      iexists d11
      isplitr
      · ipureintro; exact inv_first m c t h0 d8 d10 d11
      isplitl [HS8]; · iexact HS8
      isplitl [HS9]; · iexact HS9
      isplitl [HS10]; · iexact HS10
      isplitl [HS11]; · iexact HS11
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h1 : t.val % 4 = 1
    · rw [Dat.leavesExact_idle (dats m 0 c) 5 t (idle5 t (by omega)) (noFlush5 t (by omega))]
      iintro ⟨⟨%d8, %d9, %d10, %d11, %hI, HS8, HS9, HS10, HS11, Hg⟩, Ho, ⟨%e0, H0⟩, ⟨%e1, H1⟩, ⟨%e2, H2⟩, ⟨%e3, H3⟩, ⟨%e4, H4⟩, H5⟩
      iapply (runSecond c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) (fun h => by have := (hcondReset t).mp h; omega) ((hcondTile t).mpr (by omega)) ((hcondStats t).mpr h1) (fun h => by have := (hcondOut t).mp h; omega)
        (4096 * (t.val % 4)) (hoffTile t (by omega)) (iblk m c 0 t) (iblk m c 1 t) (iblk m c 2 t) d8 d9 Set.univ _)
      isplitl [H0]; · iexact H0
      isplitl [H1]; · iexact H1
      isplitl [H2]; · iexact H2
      isplitl [HS8]; · iexact HS8
      isplitl [HS9]; · iexact HS9
      isplitl [HS10]; · iexists _; iexact HS10
      isplitl [HS11]; · iexists _; iexact HS11
      iintro ⟨H0, H1, H2, HS8, HS9, HS10, HS11⟩
      isplitl [HS8 HS9 HS10 HS11 Hg]
      · iexists (putRows d8 (4096 * (t.val % 4)) (k0_pay3 (iblk m c 0 t) (iblk m c 1 t) (iblk m c 2 t)))
        iexists (k0_pay4 (iblk m c 0 t) (iblk m c 1 t) (iblk m c 2 t) d9)
        iexists (k0_pay6 (k0_pay4 (iblk m c 0 t) (iblk m c 1 t) (iblk m c 2 t) d9))
        iexists (k0_pay7 (k0_pay4 (iblk m c 0 t) (iblk m c 1 t) (iblk m c 2 t) d9) (putRows d8 (4096 * (t.val % 4)) (k0_pay3 (iblk m c 0 t) (iblk m c 1 t) (iblk m c 2 t))))
        isplitr
        · ipureintro; exact inv_second m c t h1 d8 d9 d10 d11 hI
        isplitl [HS8]; · iexact HS8
        isplitl [HS9]; · iexact HS9
        isplitl [HS10]; · iexact HS10
        isplitl [HS11]; · iexact HS11
        iexact Hg
      isplitl [Ho]; · iexact Ho
      isplitl [H0]; · iexact H0
      isplitl [H1]; · iexact H1
      isplitl [H2]; · iexact H2
      isplitl [H3]; · iexact H3
      isplitl [H4]; · iexact H4
      iexact H5
    · have h2 : 2 ≤ t.val % 4 := by omega
      rw [leaves5 m c t h2]
      iintro ⟨⟨%d8, %d9, %d10, %d11, %hI, HS8, HS9, HS10, HS11, Hg⟩, Ho, ⟨%e0, H0⟩, ⟨%e1, H1⟩, ⟨%e2, H2⟩, ⟨%e3, H3⟩, ⟨%e4, H4⟩, ⟨%e5, H5⟩⟩
      iapply (runOut c (grid0.coords t) (ms0 t) (hs0 t) (ms1 t) (hs1 t) (ms2 t) (hs2 t) (ms3 t) (hs3 t) (ms4 t) (hs4 t) (ms5 t) (hs5 t) sc8 (Memref.isWhole_whole _) sc9 (Memref.isWhole_whole _) sc10 (Memref.isWhole_whole _) sc11 (Memref.isWhole_whole _) (fun h => by have := (hcondReset t).mp h; omega) (fun h => by have := (hcondTile t).mp h; omega) (fun h => by have := (hcondStats t).mp h; omega) ((hcondOut t).mpr (by omega))
        (iblk m c 3 t) (iblk m c 4 t) d8 d10 d11 Set.univ _)
      isplitl [H3]; · iexact H3
      isplitl [H4]; · iexact H4
      isplitl [H5]; · iexists _; iexact H5
      isplitl [HS8]; · iexact HS8
      isplitl [HS10]; · iexact HS10
      isplitl [HS11]; · iexact HS11
      iintro ⟨H3, H4, H5, HS8, HS10, HS11⟩
      isplitl [HS8 HS9 HS10 HS11 Hg]
      · iexists d8
        iexists d9
        iexists d10
        iexists d11
        isplitr
        · ipureintro; exact (inv_out m c t h2 d8 d9 d10 d11 hI (k0_off2_inb (grid0.coords t) ((hcondOut t).mpr h2))).1
        isplitl [HS8]; · iexact HS8
        isplitl [HS9]; · iexact HS9
        isplitl [HS10]; · iexact HS10
        isplitl [HS11]; · iexact HS11
        iexact Hg
      isplitl [Ho]; · iexact Ho
      isplitl [H0]; · iexact H0
      isplitl [H1]; · iexact H1
      isplitl [H2]; · iexact H2
      isplitl [H3]; · iexact H3
      isplitl [H4]; · iexact H4
      rw [← (inv_out m c t h2 d8 d9 d10 d11 hI (k0_off2_inb (grid0.coords t) ((hcondOut t).mpr h2))).2]
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: the scratch operands at anything. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d8, HS8⟩, ⟨%d9, HS9⟩, ⟨%d10, HS10⟩, ⟨%d11, HS11⟩⟩, Hg⟩
  iexists d8; iexists d9; iexists d10; iexists d11
  isplitr
  · ipureintro; exact trivial
  isplitl [HS8]; · iexact HS8
  isplitl [HS9]; · iexact HS9
  isplitl [HS10]; · iexact HS10
  isplitl [HS11]; · iexact HS11
  iexact Hg

/-- After the last point the invariant gives back the region's own: what the scratch operands hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨%d8, %d9, %d10, %d11, -, HS8, HS9, HS10, HS11, Hg⟩
  isplitl [HS8 HS9 HS10 HS11]
  · isplitl [HS8]; · iexists _; iexact HS8
    isplitl [HS9]; · iexists _; iexact HS9
    isplitl [HS10]; · iexists _; iexact HS10
    iexists _; iexact HS11
  iexact Hg

/-! ## The run and the frame -/

set_option backward.isDefEq.respectTransparency.types false in
/-- Every weakly fair execution of the program terminates without a fault, every array of the pipeline ends at what the
    library computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The specification both programs are compared with, over the extended reals.

  For a batch `b`, a row `r` and an output feature `o`:
    y[b, r, o]    = ∑_f x[b, r, f] · W[o, f] + bias[o]                       (the affine layer)
    mean[b, o]    = (∑_r y[b, r, o]) · (1/8192)                               (the mean over the 8192 rows of the batch)
    var[b, o]     = (∑_r (y[b, r, o] − mean[b, o])²) · (1/8192)               (the biased variance over the same rows)
    out[b, r, o]  = (y[b, r, o] − mean[b, o]) · rsqrt(var[b, o] + ε) · γ[o] + β[o]
  where ε is the float literal both programs carry (the same word on both sides, never evaluated) and 1/8192 is an exact
  dyadic, so dividing by 8192 and multiplying by 1/8192 are one operation on every extended real.
-/
import Idealize.ShloMosaic.PureOps.Ideal
import Idealize.ShloMosaic.Lib.ValueIdx

noncomputable section

namespace Cert.Spec

open Idealize.ShloMosaic Idealize.ShloMosaic.ValueIdx

abbrev SX : Shape := ⟨3, ![16, 8192, 256]⟩
abbrev SW : Shape := ⟨2, ![256, 256]⟩
abbrev SV : Shape := ⟨1, ![256]⟩

/-- The reciprocal of the number of rows, an exact dyadic. -/
def invRows : EReal := ((1 / 8192 : ℝ) : EReal)

/-- The epsilon both programs add to the variance: the same binary word on both sides. -/
def eps : EReal := Ideal.ofBits .f32 0x3727C5AC#32

/-- The affine layer at one entry: the row of `x` against the row `o` of `W`, plus the bias. -/
def lin (x : SX.Idx → EReal) (W : SW.Idx → EReal) (bias : SV.Idx → EReal) (b : Fin 16) (r : Fin 8192) (o : Fin 256) : EReal :=
  (∑ f : Fin 256, x (ix3 b r f) * W (ix2 o f)) + bias (ix1 o)

/-- The mean of the affine layer over the 8192 rows of batch `b`, per feature. -/
def mean (x : SX.Idx → EReal) (W : SW.Idx → EReal) (bias : SV.Idx → EReal) (b : Fin 16) (o : Fin 256) : EReal :=
  (∑ r : Fin 8192, lin x W bias b r o) * invRows

/-- The biased variance of the affine layer over the same rows, per feature. -/
def var (x : SX.Idx → EReal) (W : SW.Idx → EReal) (bias : SV.Idx → EReal) (b : Fin 16) (o : Fin 256) : EReal :=
  (∑ r : Fin 8192, (lin x W bias b r o - mean x W bias b o) * (lin x W bias b r o - mean x W bias b o)) * invRows

/-- The normalized, scaled and shifted layer: the whole result array as one function of the five argument arrays. -/
def G (x : SX.Idx → EReal) (W : SW.Idx → EReal) (bias gamma beta : SV.Idx → EReal) : SX.Idx → EReal := fun j =>
  ((lin x W bias (j 0) (j 1) (j 2) - mean x W bias (j 0) (j 2)) * Ideal.rsqrt (var x W bias (j 0) (j 2) + eps)) * gamma (ix1 (j 2))
    + beta (ix1 (j 2))

end Cert.Spec

end
-- ==== Proof.PayAt.lean ====
/-
  The kernel body's payloads read at an index, at the ideal values (the extended reals).

  Each payload is a pure term over the vectors the body has loaded.  Read at one index, every layout
  operation (a shape cast between shapes of the same row-major order, a broadcast along a unit axis)
  disappears, every arithmetic operation is the extended reals' own, the matrix product into a zero
  accumulator is the sum of products over the contracted coordinate, a reduction over the row axis is
  the sum over the rows, and the two float literals 2^-13 and 2^13 are the reals 1/8192 and 8192.
-/
import proofs.«122771_j89094801588783_2_alg».proof.Proof.Spec
import proofs.«122771_j89094801588783_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Idealize.ShloMosaic Idealize.ShloMosaic.ValueIdx Cert.KernelIdeal Cert.KernelIdeal.Gen

/-! ## The two float literals -/

/-- The literal 2^-13 denotes the real 1/8192. -/
theorem ofBits_invRows : Ideal.ofBits .f32 0x39000000#32 = ((1 / 8192 : ℝ) : EReal) := by
  simp [Ideal.ofBits, Ideal.ieee, -EReal.coe_mul]; norm_num

/-- The literal 2^13 denotes the real 8192. -/
theorem ofBits_rows : Ideal.ofBits .f32 0x46000000#32 = ((8192 : ℝ) : EReal) := by
  simp [Ideal.ofBits, Ideal.ieee, -EReal.coe_mul]; norm_num

/-! ## The mean row -/

/-- The sum row times the literal 2^-13, at a feature: the sum there times 1/8192. -/
theorem pay5_at (s : Vec Ideal S1x256 .f32) (o : Fin 256) :
    k0_pay5 (F := Ideal) s (ix2 0 o) = s (ix2 0 o) * Cert.Spec.invRows := by
  show s (ix2 0 o) * Ideal.ofBits .f32 0x39000000#32 = _
  rw [ofBits_invRows]; rfl

/-- The stored mean row is the same row: the cast is between equal shapes. -/
theorem pay6_at (s : Vec Ideal S1x256 .f32) (o : Fin 256) :
    k0_pay6 (F := Ideal) s (ix2 0 o) = s (ix2 0 o) * Cert.Spec.invRows := by
  unfold k0_pay6
  exact (shapeCast_apply _ _ _ (ix2 0 o) rfl).trans (pay5_at s o)

/-! ## Rows, and vectors spread over the rows -/

/-- The reciprocal square root of a vector, at an index, is the extended reals' own of the element. -/
theorem rsqrt_apply {s : Shape} {φ : FTy} (a : FVec Ideal s φ) (i : s.Idx) : rsqrt a i = Ideal.rsqrt (a i) := rfl

/-- A `[256]` vector viewed as one row and spread over `n` rows reads, at `(r, o)`, the vector at `o`. -/
theorem vecRows_at {α : Type} {n : ℕ} (x : S256.Idx → α) (h1 : S256.ShapeCasts S1x256)
    (h2 : S1x256.Broadcasts ⟨2, ![n, 256]⟩) (r : Fin n) (o : Fin 256) :
    broadcastTo ⟨2, ![n, 256]⟩ (shapeCast S1x256 x h1) h2 (ix2 r o) = x (ix1 o) :=
  (broadcastTo_1b_ab_apply _ h2 r o).trans (shapeCast_a_1a_apply x h1 0 o)

/-! ## The normalized tile -/

/-- The output tile at `(0, r, o)`: the stored affine value less the mean, times the reciprocal square root of the
    variance plus the epsilon literal, times the scale, plus the shift. -/
theorem pay8_at (yt : Vec Ideal S4096x256 .f32) (v mn : Vec Ideal S1x256 .f32) (g be : Vec Ideal S256 .f32)
    (r : Fin 4096) (o : Fin 256) :
    k0_pay8 (F := Ideal) yt v mn g be (ix3 0 r o)
      = ((yt (ix2 r o) - mn (ix2 0 o)) * Ideal.rsqrt (v (ix2 0 o) + Cert.Spec.eps)) * g (ix1 o) + be (ix1 o) := by
  unfold k0_pay8
  refine (shapeCast_ab_1ab_apply _ _ 0 r o).trans ?_
  simp only [addf_apply, mulf_apply, subf_apply, rsqrt_apply, broadcast_apply, broadcastTo_1b_ab_apply, shapeCast_a_1a_apply]
  rfl

/-! ## The affine tile -/

/-- A cast between equal shapes reads the operand at the same index. -/
theorem shapeCast_same_apply {α : Type} {s : Shape} (x : s.Idx → α) (h : s.ShapeCasts s) (j : s.Idx) :
    shapeCast s x h j = x j :=
  shapeCast_apply x h j j rfl

/-- The tile's matrix product into the zero accumulator, at `(r, o)`: the sum over the contracted coordinate `f` of the
    left operand at `(r, f)` times the right operand at `(f, o)`. -/
theorem matmul_at (A : FVec Ideal S4096x256 .f32) (B : FVec Ideal S256x256 .f32) (r : Fin 4096) (o : Fin 256) :
    matmul dot_S4096x256_S256x256_S4096x256_1_0_0_1_n_n none A B (constant S4096x256 .f32 0x00000000#32) (ix2 r o)
      = ∑ f : Fin 256, A (ix2 r f) * B (ix2 f o) := by
  show FloatOps.matmul _ none A B (constant S4096x256 .f32 0x00000000#32) (ix2 r o) = _
  rw [Ideal.matmul_constant_zero_apply,
    ← Equiv.sum_comp (contrEquiv1 dot_S4096x256_S256x256_S4096x256_1_0_0_1_n_n 256 rfl rfl).symm]
  refine Finset.sum_congr rfl fun f _ => ?_
  have hf := contrEquiv1_symm_val dot_S4096x256_S256x256_S4096x256_1_0_0_1_n_n 256 rfl rfl f
  have hl : dot_S4096x256_S256x256_S4096x256_1_0_0_1_n_n.lhsIdx (ix2 r o)
      ((contrEquiv1 dot_S4096x256_S256x256_S4096x256_1_0_0_1_n_n 256 rfl rfl).symm f) = ix2 r f := by
    funext ax; apply Fin.ext
    match ax with
    | ⟨0, _⟩ => rfl
    | ⟨1, _⟩ => exact hf
  have hr : dot_S4096x256_S256x256_S4096x256_1_0_0_1_n_n.rhsIdx (ix2 r o)
      ((contrEquiv1 dot_S4096x256_S256x256_S4096x256_1_0_0_1_n_n 256 rfl rfl).symm f) = ix2 f o := by
    funext ax; apply Fin.ext
    match ax with
    | ⟨0, _⟩ => exact hf
    | ⟨1, _⟩ => rfl
  rw [hl, hr]

/-- The affine tile at `(r, o)`: row `r` of the input tile against column `o` of the weight, plus the bias at `o`. -/
theorem pay2_at (xb : Vec Ideal S1x4096x256 .f32) (wt : Vec Ideal S256x256 .f32) (bv : Vec Ideal S256 .f32)
    (r : Fin 4096) (o : Fin 256) :
    k0_pay2 (F := Ideal) xb wt bv (ix2 r o)
      = (∑ f : Fin 256, xb (ix3 0 r f) * wt (ix2 f o)) + bv (ix1 o) := by
  unfold k0_pay2
  refine (addf_apply _ _ (ix2 r o)).trans ?_
  refine congrArg₂ (· + ·) ((matmul_at _ _ r o).trans (Finset.sum_congr rfl fun f _ => ?_)) (vecRows_at bv _ _ r o)
  exact congrArg₂ (· * ·) (shapeCast_1ab_ab_apply xb _ r f) (shapeCast_same_apply wt _ (ix2 f o))

/-- The stored affine tile is the same tile: the cast is between equal shapes. -/
theorem pay3_at (xb : Vec Ideal S1x4096x256 .f32) (wt : Vec Ideal S256x256 .f32) (bv : Vec Ideal S256 .f32)
    (r : Fin 4096) (o : Fin 256) :
    k0_pay3 (F := Ideal) xb wt bv (ix2 r o)
      = (∑ f : Fin 256, xb (ix3 0 r f) * wt (ix2 f o)) + bv (ix1 o) := by
  unfold k0_pay3
  exact (shapeCast_same_apply _ _ (ix2 r o)).trans (pay2_at xb wt bv r o)

/-! ## The sum over the rows -/

/-- The sum over the row axis of an `[n, 256]` vector, at a feature `o`: the sum over the rows of the vector at
    `(k, o)`. -/
theorem rowSum_at {n : ℕ} (src : FVec Ideal ⟨2, ![n, 256]⟩ .f32) (h : (⟨2, ![n, 256]⟩ : Shape).Reduces [0] S256)
    (hφ : FKind.Formats .f32) (hacc : (0x00000000#32 : BitVec 32) = FKind.add.neutral .f32 hφ) (o : Fin 256) :
    multiReduction .add [0] S256 src 0x00000000#32 h hφ hacc (ix1 o) = ∑ k : Fin n, src (ix2 k o) := by
  refine (Ideal.multiReduction_add_single src _ h hφ hacc (ix1 o)).trans ?_
  refine Finset.sum_congr rfl fun k _ => congrArg src ?_
  funext ax; apply Fin.ext
  match ax with
  | ⟨0, _⟩ => rfl
  | ⟨1, _⟩ => rfl

/-- The running sum row at a feature `o`: the row read before, plus the tile's affine values summed over its rows. -/
theorem pay4_at (xb : Vec Ideal S1x4096x256 .f32) (wt : Vec Ideal S256x256 .f32) (bv : Vec Ideal S256 .f32)
    (s : Vec Ideal S1x256 .f32) (o : Fin 256) :
    k0_pay4 (F := Ideal) xb wt bv s (ix2 0 o)
      = s (ix2 0 o) + ∑ r : Fin 4096, k0_pay2 (F := Ideal) xb wt bv (ix2 r o) := by
  unfold k0_pay4
  refine (shapeCast_same_apply _ _ (ix2 0 o)).trans ?_
  refine (addf_apply _ _ (ix2 0 o)).trans (congrArg (s (ix2 0 o) + ·) ?_)
  exact (shapeCast_a_1a_apply _ _ 0 o).trans (rowSum_at _ _ _ _ o)

/-! ## The variance row -/

/-- The variance row at a feature `o`: the squared deviations of the stored affine values from the mean, summed over
    the 8192 rows, times 1/8192 (the quotient by the literal 2^13 is that product on every extended real). -/
theorem pay7_at (s : Vec Ideal S1x256 .f32) (d : Vec Ideal S8192x256 .f32) (o : Fin 256) :
    k0_pay7 (F := Ideal) s d (ix2 0 o)
      = (∑ R : Fin 8192, (d (ix2 R o) - s (ix2 0 o) * Cert.Spec.invRows) * (d (ix2 R o) - s (ix2 0 o) * Cert.Spec.invRows))
          * Cert.Spec.invRows := by
  unfold k0_pay7
  refine (shapeCast_same_apply _ _ (ix2 0 o)).trans ?_
  refine (divf_apply _ _ (ix2 0 o)).trans ?_
  show Ideal.div _ (Ideal.ofBits .f32 0x46000000#32) = _
  rw [ofBits_rows, Ideal.div_coe (by norm_num : (8192 : ℝ) ≠ 0)]
  refine congrArg (· * Cert.Spec.invRows) ?_
  refine (shapeCast_a_1a_apply _ _ 0 o).trans ((rowSum_at _ _ _ _ o).trans (Finset.sum_congr rfl fun R _ => ?_))
  have hm : broadcastTo S8192x256 (k0_pay5 (F := Ideal) s) broadcasts_S1x256_S8192x256 (ix2 R o)
      = s (ix2 0 o) * Cert.Spec.invRows :=
    (broadcastTo_1b_ab_apply _ _ R o).trans (pay5_at s o)
  refine (mulf_apply _ _ (ix2 R o)).trans ?_
  rw [subf_apply, hm]

/-! ## The cleared sum row -/

/-- The row the first step stores is zero everywhere. -/
theorem pay1_at (o : Fin 256) : k0_pay1 (F := Ideal) (ix2 0 o) = 0 := by
  unfold k0_pay1
  exact (shapeCast_same_apply _ _ (ix2 0 o)).trans Ideal.ofBits_zero_f32

end Cert.KernelIdeal.PayAt

end
-- ==== Proof.BlocksAt.lean ====
/-
  The windows' blocks read at an index, and where the output's blocks lie.

  The grid has 16 × 4 points; point `t` is batch `t / 4` at position `t % 4`.  The input tile's block at `t` is rows
  `4096 · min (t % 4) 1 …` of batch `t / 4`; the weight, bias, scale and shift windows are the whole arrays (the weight
  window's array is the transpose of the weight argument); the output's block at `t` is rows `4096 · (t % 4 − 2) …` of
  batch `t / 4`, written back exactly at the positions 2 and 3, and those blocks cover the whole output array.
  A block's coordinate on an axis is the block index times the block's extent plus the coordinate inside the block.
-/
import proofs.«122771_j89094801588783_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.BlocksAt

open Cert.KernelIdeal Cert.KernelIdeal.Gen Idealize.ShloMosaic Idealize.ShloMosaic.ValueIdx
open Idealize.ShloMosaic.TcCoe Idealize.SL.Sem

variable {F : FTy → Type} [FloatOps F]
variable (m : (ℓ : Loc nD τ sig) → Buf (Elt F) ℓ)

/-! ## The index maps over the grid -/

/-- The block indices of the input tile's window and of the output's window at every grid point. -/
theorem idx_facts : ∀ t : Fin cfg0.N, win0_0.index t (0 : Fin 3) = t.val / 4
    ∧ win0_0.index t (1 : Fin 3) = min (t.val % 4) 1
    ∧ win0_0.index t (2 : Fin 3) = 0
    ∧ win0_5.index t (0 : Fin 3) = t.val / 4
    ∧ win0_5.index t (1 : Fin 3) = t.val % 4 - 2
    ∧ win0_5.index t (2 : Fin 3) = 0 :=
  (by decide +kernel : ∀ t : Fin grid0.N, _)

/-- The output's window is written back exactly at the positions 2 and 3 of each batch. -/
theorem flush5 : ∀ t : Fin cfg0.N, (cfg0.win 5).flush t = true ↔ 2 ≤ t.val % 4 :=
  (by decide +kernel : ∀ t : Fin grid0.N, win0_5.flush t = true ↔ 2 ≤ t.val % 4)

/-- A grid point is below 64. -/
theorem t_lt (t : Fin cfg0.N) : t.val < 64 := t.isLt.trans_eq N_0

/-! ## The input tile's block -/

/-- The input tile's block at point `t`, at `(0, r, f)`: the input array, as the region finds it, at batch `t / 4`, row
    `4096 · min (t % 4) 1 + r`, feature `f`. -/
theorem xblk_at (c : Dev nD) (t : Fin cfg0.N) (r : Fin 4096) (f : Fin 256) :
    iblk m c 0 t (ix3 (0 : Fin 1) r f)
      = V m c main_arg0 (ix3 (⟨t.val / 4, by have := t_lt t; omega⟩ : Fin 16)
          (⟨4096 * min (t.val % 4) 1 + r.val, by have := r.isLt; omega⟩ : Fin 8192) f) := by
  obtain ⟨e0, e1, e2, -, -, -⟩ := idx_facts t
  show V m c main_arg0 (((cfg0.win 0).blk t).view.emb (ix3 (0 : Fin 1) r f)) = _
  refine congrArg (V m c main_arg0) ?_
  funext a; apply Fin.ext
  match a with
  | ⟨0, _⟩ => show win0_0.index t (0 : Fin 3) * 1 + 1 * 0 = t.val / 4; omega
  | ⟨1, _⟩ => show win0_0.index t (1 : Fin 3) * 4096 + 1 * r.val = 4096 * min (t.val % 4) 1 + r.val; omega
  | ⟨2, _⟩ => show win0_0.index t (2 : Fin 3) * 256 + 1 * f.val = f.val; omega

/-! ## The output's blocks -/

/-- Where the output's block at a writing point `t` lies: `(0, r, o)` of the block is batch `t / 4`, row
    `4096 · (t % 4 − 2) + r`, feature `o` of the array. -/
theorem out_emb (t : Fin cfg0.N) (h : 2 ≤ t.val % 4) (r : Fin 4096) (o : Fin 256) :
    ((cfg0.win 5).blk t).view.emb (ix3 (0 : Fin 1) r o)
      = ix3 (⟨t.val / 4, by have := t_lt t; omega⟩ : Fin 16)
          (⟨4096 * (t.val % 4 - 2) + r.val, by have := r.isLt; omega⟩ : Fin 8192) o := by
  obtain ⟨-, -, -, e3, e4, e5⟩ := idx_facts t
  funext a; apply Fin.ext
  match a with
  | ⟨0, _⟩ => show win0_5.index t (0 : Fin 3) * 1 + 1 * 0 = t.val / 4; omega
  | ⟨1, _⟩ => show win0_5.index t (1 : Fin 3) * 4096 + 1 * r.val = 4096 * (t.val % 4 - 2) + r.val; omega
  | ⟨2, _⟩ => show win0_5.index t (2 : Fin 3) * 256 + 1 * o.val = o.val; omega

/-- An index of the output array is in point `t`'s block iff each coordinate is in the block's range on its axis. -/
theorem mem_blk5 (t : Fin cfg0.N) (i : S16x8192x256.Idx) :
    i ∈ ((cfg0.win 5).blk t).view.set ↔ ∀ a : Fin 3, win0_5.index t a * S1x4096x256.size a ≤ (i a).val
      ∧ (i a).val < win0_5.index t a * S1x4096x256.size a + S1x4096x256.size a := by
  show i ∈ ((View.whole main_v1).slice (win0_5.rect t)).set ↔ _
  rw [View.set_slice_whole, Rect.mem_set_unit]
  exact Iff.rfl

/-- Every index of the output array is in the block of a point that writes back: batch `i 0` at position
    `2 + (i 1) / 4096`. -/
theorem covered5 (i : S16x8192x256.Idx) :
    ∃ t : Fin cfg0.N, (cfg0.win 5).flush t = true ∧ i ∈ ((cfg0.win 5).blk t).view.set := by
  have h0 : (i 0).val < 16 := (i 0).isLt
  have h1 : (i 1).val < 8192 := (i 1).isLt
  have h2 : (i 2).val < 256 := (i 2).isLt
  have hN : 4 * (i 0).val + 2 + (i 1).val / 4096 < cfg0.N := (show _ < 64 by omega).trans_eq N_0.symm
  obtain ⟨-, -, -, e3, e4, e5⟩ := idx_facts ⟨4 * (i 0).val + 2 + (i 1).val / 4096, hN⟩
  refine ⟨⟨4 * (i 0).val + 2 + (i 1).val / 4096, hN⟩, (flush5 _).mpr (show 2 ≤ (4 * (i 0).val + 2 + (i 1).val / 4096) % 4 by omega), ?_⟩
  rw [mem_blk5]
  intro a
  match a with
  | ⟨0, _⟩ =>
    show win0_5.index ⟨4 * (i 0).val + 2 + (i 1).val / 4096, hN⟩ (0 : Fin 3) * 1 ≤ (i 0).val
      ∧ (i 0).val < win0_5.index ⟨4 * (i 0).val + 2 + (i 1).val / 4096, hN⟩ (0 : Fin 3) * 1 + 1
    rw [e3]; show (4 * (i 0).val + 2 + (i 1).val / 4096) / 4 * 1 ≤ _ ∧ _ < (4 * (i 0).val + 2 + (i 1).val / 4096) / 4 * 1 + 1; omega
  | ⟨1, _⟩ =>
    show win0_5.index ⟨4 * (i 0).val + 2 + (i 1).val / 4096, hN⟩ (1 : Fin 3) * 4096 ≤ (i 1).val
      ∧ (i 1).val < win0_5.index ⟨4 * (i 0).val + 2 + (i 1).val / 4096, hN⟩ (1 : Fin 3) * 4096 + 4096
    rw [e4]; show ((4 * (i 0).val + 2 + (i 1).val / 4096) % 4 - 2) * 4096 ≤ _ ∧ _ < ((4 * (i 0).val + 2 + (i 1).val / 4096) % 4 - 2) * 4096 + 4096; omega
  | ⟨2, _⟩ =>
    show win0_5.index ⟨4 * (i 0).val + 2 + (i 1).val / 4096, hN⟩ (2 : Fin 3) * 256 ≤ (i 2).val
      ∧ (i 2).val < win0_5.index ⟨4 * (i 0).val + 2 + (i 1).val / 4096, hN⟩ (2 : Fin 3) * 256 + 256
    rw [e5]; omega

/-! ## The whole windows -/

/-- The weight, bias, scale and shift windows sit at block index zero at every grid point. -/
theorem idx_whole : ∀ t : Fin cfg0.N, win0_1.index t (0 : Fin 2) = 0 ∧ win0_1.index t (1 : Fin 2) = 0
    ∧ win0_2.index t (0 : Fin 1) = 0 ∧ win0_3.index t (0 : Fin 1) = 0 ∧ win0_4.index t (0 : Fin 1) = 0 :=
  (by decide +kernel : ∀ t : Fin grid0.N, _)

/-- The input array is found as launched. -/
theorem x_is_arg (c : Dev nD) : V m c main_arg0 = m ((c : Thread nD τ).loc main_arg0) := V_main_arg0 m c

/-- The bias window's block at `o` is the bias argument at `o`. -/
theorem bias_at (c : Dev nD) (t : Fin cfg0.N) (o : Fin 256) :
    iblk m c 2 t (ix1 o) = m ((c : Thread nD τ).loc main_arg2) (ix1 o) := by
  obtain ⟨-, -, e2, -, -⟩ := idx_whole t
  show V m c main_arg2 (((cfg0.win 2).blk t).view.emb (ix1 o)) = _
  refine (congrFun (V_main_arg2 m c) _).trans (congrArg (m ((c : Thread nD τ).loc main_arg2)) ?_)
  funext a; apply Fin.ext
  match a with
  | ⟨0, _⟩ => show win0_2.index t (0 : Fin 1) * 256 + 1 * o.val = o.val; omega

/-- The scale window's block at `o` is the scale argument at `o`. -/
theorem gamma_at (c : Dev nD) (t : Fin cfg0.N) (o : Fin 256) :
    iblk m c 3 t (ix1 o) = m ((c : Thread nD τ).loc main_arg3) (ix1 o) := by
  obtain ⟨-, -, -, e3, -⟩ := idx_whole t
  show V m c main_arg3 (((cfg0.win 3).blk t).view.emb (ix1 o)) = _
  refine (congrFun (V_main_arg3 m c) _).trans (congrArg (m ((c : Thread nD τ).loc main_arg3)) ?_)
  funext a; apply Fin.ext
  match a with
  | ⟨0, _⟩ => show win0_3.index t (0 : Fin 1) * 256 + 1 * o.val = o.val; omega

/-- The shift window's block at `o` is the shift argument at `o`. -/
theorem beta_at (c : Dev nD) (t : Fin cfg0.N) (o : Fin 256) :
    iblk m c 4 t (ix1 o) = m ((c : Thread nD τ).loc main_arg4) (ix1 o) := by
  obtain ⟨-, -, -, -, e4⟩ := idx_whole t
  show V m c main_arg4 (((cfg0.win 4).blk t).view.emb (ix1 o)) = _
  refine (congrFun (V_main_arg4 m c) _).trans (congrArg (m ((c : Thread nD τ).loc main_arg4)) ?_)
  funext a; apply Fin.ext
  match a with
  | ⟨0, _⟩ => show win0_4.index t (0 : Fin 1) * 256 + 1 * o.val = o.val; omega

/-- The weight window's array is the transpose of the weight argument, so its block at `(f, o)` is the weight
    argument at `(o, f)`. -/
theorem wblk_at (c : Dev nD) (t : Fin cfg0.N) (f o : Fin 256) :
    iblk m c 1 t (ix2 f o) = m ((c : Thread nD τ).loc main_arg1) (ix2 o f) := by
  have e : (V m c main_v0 : S256x256.Idx → Elt F .f32)
      = transpose S256x256 [1, 0] (m ((c : Thread nD τ).loc main_arg1)) transposes_S256x256_S256x256_1_0 := by
    dsimp only [Gen.V, Gen.hostOps0]; after_results
  obtain ⟨e0, e1, -, -, -⟩ := idx_whole t
  have hemb : ((cfg0.win 1).blk t).view.emb (ix2 f o) = ix2 f o := by
    funext a; apply Fin.ext
    match a with
    | ⟨0, _⟩ => show win0_1.index t (0 : Fin 2) * 256 + 1 * f.val = f.val; omega
    | ⟨1, _⟩ => show win0_1.index t (1 : Fin 2) * 256 + 1 * o.val = o.val; omega
  show V m c main_v0 (((cfg0.win 1).blk t).view.emb (ix2 f o)) = _
  rw [hemb]
  exact (congrFun e (ix2 f o)).trans (transpose_ix2_apply _ _ f o)

end Cert.KernelIdeal.BlocksAt

end
-- ==== Proof.NormTile.lean ====
import proofs.«122771_j89094801588783_2_alg».proof.Proof.Spec
import Mathlib.Algebra.BigOperators.Fin

/-
  The batch's statistics from two tiles of 4096 rows, and the normalized tiles, as the specification.

  The 8192 rows of a batch are the rows 0, …, 4095 followed by the rows 4096, …, 8191, so a sum over all rows is the sum
  over the first tile plus the sum over the second. Addition of extended reals is commutative and associative, the
  infinities included, so no finiteness is asked of the terms. A running sum that starts at zero and receives the two
  tiles' column sums is therefore the column sum of the affine layer over the whole batch; the mean and the biased
  variance computed from it, and from the batch-long array holding the two tiles one after the other, are the
  specification's by unfolding; and a tile normalized with them is the specification's result on the tile's rows.
  Only 0 + s = s and the split of the sum are used; nothing is distributed.
-/

noncomputable section

namespace Cert.Spec

open Idealize.ShloMosaic Idealize.ShloMosaic.ValueIdx

/-- A sum over the 8192 rows is the sum over the first 4096 plus the sum over the last 4096. -/
theorem sum_rows_split (f : Fin 8192 → EReal) :
    ∑ R : Fin 8192, f R = (∑ r : Fin 4096, f ⟨r.val, by omega⟩) + ∑ r : Fin 4096, f ⟨4096 + r.val, by omega⟩ :=
  Fin.sum_univ_add (a := 4096) (b := 4096) f

/-- From the two tiles of the affine layer, the batch-long array that holds them, the running sum, and the mean and
    variance taken from these: the mean and the variance are the specification's, and each tile normalized, scaled and
    shifted is the specification's result on its rows. -/
theorem norm_tile (x : SX.Idx → EReal) (W : SW.Idx → EReal) (b g be : SV.Idx → EReal) (β : Fin 16)
    (Y0 Y1 : (⟨2, ![4096, 256]⟩ : Shape).Idx → EReal) (D : (⟨2, ![8192, 256]⟩ : Shape).Idx → EReal) (S mn vr : (⟨2, ![1, 256]⟩ : Shape).Idx → EReal)
    (hY0 : ∀ (r : Fin 4096) (o : Fin 256), Y0 (ix2 r o) = lin x W b β ⟨r.val, by omega⟩ o)
    (hY1 : ∀ (r : Fin 4096) (o : Fin 256), Y1 (ix2 r o) = lin x W b β ⟨4096 + r.val, by omega⟩ o)
    (hD0 : ∀ (r : Fin 4096) (o : Fin 256), D (ix2 (⟨r.val, by omega⟩ : Fin 8192) o) = Y0 (ix2 r o))
    (hD1 : ∀ (r : Fin 4096) (o : Fin 256), D (ix2 (⟨4096 + r.val, by omega⟩ : Fin 8192) o) = Y1 (ix2 r o))
    (hS : ∀ o : Fin 256, S (ix2 0 o) = (0 + ∑ r : Fin 4096, Y0 (ix2 r o)) + ∑ r : Fin 4096, Y1 (ix2 r o))
    (hmn : ∀ o : Fin 256, mn (ix2 0 o) = S (ix2 0 o) * invRows)
    (hvr : ∀ o : Fin 256, vr (ix2 0 o) = (∑ R : Fin 8192, (D (ix2 R o) - S (ix2 0 o) * invRows) * (D (ix2 R o) - S (ix2 0 o) * invRows)) * invRows) :
    (∀ o, mn (ix2 0 o) = mean x W b β o) ∧ (∀ o, vr (ix2 0 o) = var x W b β o)
    ∧ (∀ (r : Fin 4096) (o : Fin 256), ((Y0 (ix2 r o) - mn (ix2 0 o)) * Ideal.rsqrt (vr (ix2 0 o) + eps)) * g (ix1 o) + be (ix1 o) = G x W b g be (ix3 β (⟨r.val, by omega⟩ : Fin 8192) o))
    ∧ (∀ (r : Fin 4096) (o : Fin 256), ((Y1 (ix2 r o) - mn (ix2 0 o)) * Ideal.rsqrt (vr (ix2 0 o) + eps)) * g (ix1 o) + be (ix1 o) = G x W b g be (ix3 β (⟨4096 + r.val, by omega⟩ : Fin 8192) o)) := by
  -- the running sum is the column sum of the affine layer over the whole batch
  have hSum : ∀ o : Fin 256, S (ix2 0 o) = ∑ R : Fin 8192, lin x W b β R o := by
    intro o
    rw [hS, zero_add, sum_rows_split (fun R => lin x W b β R o)]
    simp only [hY0, hY1]
  -- the batch-long array is the affine layer on every row: a row is in the first tile or in the second
  have hD : ∀ (R : Fin 8192) (o : Fin 256), D (ix2 R o) = lin x W b β R o := by
    intro R o
    by_cases h : R.val < 4096
    · exact (hD0 ⟨R.val, h⟩ o).trans (hY0 ⟨R.val, h⟩ o)
    · have h2 : R.val - 4096 < 4096 := by omega
      have e : (⟨4096 + (R.val - 4096), by omega⟩ : Fin 8192) = R := Fin.ext (by show 4096 + (R.val - 4096) = R.val; omega)
      have t := (hD1 ⟨R.val - 4096, h2⟩ o).trans (hY1 ⟨R.val - 4096, h2⟩ o)
      rw [show (⟨4096 + (⟨R.val - 4096, h2⟩ : Fin 4096).val, by omega⟩ : Fin 8192) = R from e] at t
      exact t
  have hmean : ∀ o : Fin 256, mn (ix2 0 o) = mean x W b β o := by
    intro o
    rw [hmn, hSum]
    rfl
  have hvar : ∀ o : Fin 256, vr (ix2 0 o) = var x W b β o := by
    intro o
    rw [hvr]
    simp only [hD, hSum]
    rfl
  refine ⟨hmean, hvar, ?_, ?_⟩
  · intro r o
    rw [hY0, hmean, hvar]
    rfl
  · intro r o
    rw [hY1, hmean, hvar]
    rfl

end Cert.Spec

end
-- ==== Proof.ResultIdeal.lean ====
import proofs.«122771_j89094801588783_2_alg».proof.Proof.BodyIdeal.Run
import proofs.«122771_j89094801588783_2_alg».proof.Proof.PayAt
import proofs.«122771_j89094801588783_2_alg».proof.Proof.BlocksAt
import proofs.«122771_j89094801588783_2_alg».proof.Proof.NormTile
import Idealize.ShloMosaic.Lib.Pipeline.Value

/-
  The kernel's result array, at the ideal values, is the specification of its argument arrays.

  The grid has 64 points; point t is batch t / 4 at position t % 4. Within a batch the first point computes the first
  tile of the affine layer (rows 0, …, 4095) and starts the running sum, the second computes the second tile (rows
  4096, …, 8191), completes the sum and takes the mean and the variance of the whole batch, and the third and the fourth
  write out the first and the second tile normalized, scaled and shifted. Unrolling the tracked values over the four
  points of a batch gives them as terms of the batch's two blocks; read at an index, these are the affine layer on the
  block's rows, the column sums, and the mean and variance of the specification; so what a writing point leaves in the
  output's block is the specification read through the block, the blocks written cover the output array, and the array
  ends holding the specification.
-/

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.PayAt Cert.KernelIdeal.BlocksAt
open Cert.Spec Idealize.ShloMosaic.ValueIdx

variable (m : (ℓ : Loc nD τ sig) → Buf (Elt Ideal) ℓ) (ρ : Dev nD → PrngReg)

/-! ## The arguments, the specification of them, and a batch's points -/

/-- The five argument arrays as launched. -/
abbrev aX (c : Dev nD) : SX.Idx → EReal := m ((c : Thread nD τ).loc main_arg0)
abbrev aW (c : Dev nD) : SW.Idx → EReal := m ((c : Thread nD τ).loc main_arg1)
abbrev aB (c : Dev nD) : SV.Idx → EReal := m ((c : Thread nD τ).loc main_arg2)
abbrev aG (c : Dev nD) : SV.Idx → EReal := m ((c : Thread nD τ).loc main_arg3)
abbrev aBe (c : Dev nD) : SV.Idx → EReal := m ((c : Thread nD τ).loc main_arg4)

/-- The specification of the argument arrays as launched. -/
abbrev SPEC (c : Dev nD) : SX.Idx → EReal := Cert.Spec.G (aX m c) (aW m c) (aB m c) (aG m c) (aBe m c)

/-- The batch of a point, and the first and the second point of its batch. -/
abbrev bt (t : Fin cfg0.N) : Fin 16 := ⟨t.val / 4, by have := t_lt t; omega⟩
abbrev pt0 (t : Fin cfg0.N) : Fin cfg0.N := ⟨4 * (t.val / 4), by have := t.isLt; omega⟩
abbrev pt1 (t : Fin cfg0.N) (h2 : 2 ≤ t.val % 4) : Fin cfg0.N := ⟨4 * (t.val / 4) + 1, by have := t.isLt; omega⟩

/-- The tile of the affine layer computed from the blocks at point s, and the running sum after that tile is added. -/
abbrev tileAt (c : Dev nD) (s : Fin cfg0.N) : Vec Ideal S4096x256 .f32 := k0_pay3 (iblk m c 0 s) (iblk m c 1 s) (iblk m c 2 s)
abbrev sumAt (c : Dev nD) (s : Fin cfg0.N) (p : Vec Ideal S1x256 .f32) : Vec Ideal S1x256 .f32 :=
  k0_pay4 (iblk m c 0 s) (iblk m c 1 s) (iblk m c 2 s) p

/-- The affine layer and the specification depend on the values of the batch and row coordinates only. -/
theorem lin_congr (x : SX.Idx → EReal) (W : SW.Idx → EReal) (b : SV.Idx → EReal) {β β' : Fin 16} {R R' : Fin 8192} (o : Fin 256)
    (hβ : β.val = β'.val) (hR : R.val = R'.val) : lin x W b β R o = lin x W b β' R' o := by
  obtain rfl := Fin.ext hβ; obtain rfl := Fin.ext hR; rfl
theorem G_congr (x : SX.Idx → EReal) (W : SW.Idx → EReal) (b g be : SV.Idx → EReal) {β β' : Fin 16} {R R' : Fin 8192} (o : Fin 256)
    (hβ : β.val = β'.val) (hR : R.val = R'.val) : G x W b g be (ix3 β R o) = G x W b g be (ix3 β' R' o) := by
  obtain rfl := Fin.ext hβ; obtain rfl := Fin.ext hR; rfl

/-! ## The tracked values of a batch, unrolled -/

theorem stAt_congr (c : Dev nD) {n n' : ℕ} (e : n = n') (h : n < cfg0.N) (h' : n' < cfg0.N) :
    stAt m c n h = stAt m c n' h' := by subst e; rfl

theorem stAt_succ (c : Dev nD) (n : ℕ) (h : n + 1 < cfg0.N) :
    stAt m c (n + 1) h = step m c ⟨n + 1, h⟩ (stAt m c n (Nat.lt_of_succ_lt h)) := rfl

/-- At a batch's first point the first tile is computed and the running sum started. -/
theorem st_first (c : Dev nD) (n : ℕ) (h : n < cfg0.N) (h0 : n % 4 = 0) :
    (stAt m c n h).y0 = tileAt m c ⟨n, h⟩ ∧ (stAt m c n h).s = sumAt m c ⟨n, h⟩ (k0_pay1 (F := Ideal)) := by
  have hs : stAt m c n h = step m c ⟨n, h⟩ (prevSt m c ⟨n, h⟩) := stAt_eq m c ⟨n, h⟩
  unfold step at hs
  have c0 : (⟨n, h⟩ : Fin cfg0.N).val % 4 = 0 := h0
  rw [if_pos c0] at hs
  rw [hs]
  exact ⟨rfl, rfl⟩

/-- At its second point the second tile is computed, the sum completed, and the mean and the variance taken. -/
theorem st_second (c : Dev nD) (n : ℕ) (h : n + 1 < cfg0.N) (h0 : n % 4 = 0) :
    stAt m c (n + 1) h
      = ⟨tileAt m c ⟨n, Nat.lt_of_succ_lt h⟩, tileAt m c ⟨n + 1, h⟩,
          sumAt m c ⟨n + 1, h⟩ (sumAt m c ⟨n, Nat.lt_of_succ_lt h⟩ (k0_pay1 (F := Ideal))),
          k0_pay6 (sumAt m c ⟨n + 1, h⟩ (sumAt m c ⟨n, Nat.lt_of_succ_lt h⟩ (k0_pay1 (F := Ideal)))),
          k0_pay7 (sumAt m c ⟨n + 1, h⟩ (sumAt m c ⟨n, Nat.lt_of_succ_lt h⟩ (k0_pay1 (F := Ideal))))
            (glue (tileAt m c ⟨n, Nat.lt_of_succ_lt h⟩) (tileAt m c ⟨n + 1, h⟩))⟩ := by
  obtain ⟨e0, e1⟩ := st_first m c n (Nat.lt_of_succ_lt h) h0
  refine (stAt_succ m c n h).trans ?_
  unfold step
  have c0 : ¬ (⟨n + 1, h⟩ : Fin cfg0.N).val % 4 = 0 := by show ¬ (n + 1) % 4 = 0; omega
  have c1 : (⟨n + 1, h⟩ : Fin cfg0.N).val % 4 = 1 := by show (n + 1) % 4 = 1; omega
  rw [if_neg c0, if_pos c1, e0, e1]

/-- The third and the fourth point change nothing. -/
theorem st_keep (c : Dev nD) (n : ℕ) (h : n + 1 < cfg0.N) (h2 : 2 ≤ (n + 1) % 4) :
    stAt m c (n + 1) h = stAt m c n (Nat.lt_of_succ_lt h) := by
  refine (stAt_succ m c n h).trans ?_
  unfold step
  have c0 : ¬ (⟨n + 1, h⟩ : Fin cfg0.N).val % 4 = 0 := by show ¬ (n + 1) % 4 = 0; omega
  have c1 : ¬ (⟨n + 1, h⟩ : Fin cfg0.N).val % 4 = 1 := by show ¬ (n + 1) % 4 = 1; omega
  rw [if_neg c0, if_neg c1]

/-- The tracked values at a writing point are those after the batch's second point. -/
theorem st_out (c : Dev nD) (t : Fin cfg0.N) (h2 : 2 ≤ t.val % 4) :
    stAt m c t.val t.isLt
      = ⟨tileAt m c (pt0 t), tileAt m c (pt1 t h2),
          sumAt m c (pt1 t h2) (sumAt m c (pt0 t) (k0_pay1 (F := Ideal))),
          k0_pay6 (sumAt m c (pt1 t h2) (sumAt m c (pt0 t) (k0_pay1 (F := Ideal)))),
          k0_pay7 (sumAt m c (pt1 t h2) (sumAt m c (pt0 t) (k0_pay1 (F := Ideal)))) (glue (tileAt m c (pt0 t)) (tileAt m c (pt1 t h2)))⟩ := by
  have hN := t.isLt
  have hb : 4 * (t.val / 4) % 4 = 0 := by omega
  by_cases h3 : t.val % 4 = 2
  · have e : t.val = 4 * (t.val / 4) + 1 + 1 := by omega
    exact (stAt_congr m c e t.isLt (by omega)).trans
      ((st_keep m c (4 * (t.val / 4) + 1) (by omega) (by omega)).trans (st_second m c (4 * (t.val / 4)) (by omega) hb))
  · have e : t.val = 4 * (t.val / 4) + 1 + 1 + 1 := by omega
    exact (stAt_congr m c e t.isLt (by omega)).trans
      ((st_keep m c (4 * (t.val / 4) + 1 + 1) (by omega) (by omega)).trans
        ((st_keep m c (4 * (t.val / 4) + 1) (by omega) (by omega)).trans (st_second m c (4 * (t.val / 4)) (by omega) hb)))

/-! ## The tiles, the sum, the mean and the variance of a batch, read at an index -/

/-- The tile computed from the blocks at point s is the affine layer of the arguments on the rows of the input's block. -/
theorem tile_lin (c : Dev nD) (s : Fin cfg0.N) (r : Fin 4096) (o : Fin 256) :
    tileAt m c s (ix2 r o)
      = lin (aX m c) (aW m c) (aB m c) (⟨s.val / 4, by have := t_lt s; omega⟩ : Fin 16)
          (⟨4096 * min (s.val % 4) 1 + r.val, by have := r.isLt; omega⟩ : Fin 8192) o := by
  refine (pay3_at _ _ _ r o).trans ?_
  unfold lin
  rw [bias_at m c s o]
  refine congrArg₂ (· + ·) (Finset.sum_congr rfl fun f _ => ?_) rfl
  rw [xblk_at m c s r f, x_is_arg m c, wblk_at m c s f o]

/-- The tile of the batch's first point is the affine layer on the rows 0, …, 4095 of the batch, -/
theorem tile0_lin (c : Dev nD) (t : Fin cfg0.N) (r : Fin 4096) (o : Fin 256) :
    tileAt m c (pt0 t) (ix2 r o) = lin (aX m c) (aW m c) (aB m c) (bt t) ⟨r.val, by omega⟩ o :=
  (tile_lin m c (pt0 t) r o).trans (lin_congr _ _ _ o (by show 4 * (t.val / 4) / 4 = t.val / 4; omega)
    (by show 4096 * min (4 * (t.val / 4) % 4) 1 + r.val = r.val; omega))

/-- and the tile of its second point on the rows 4096, …, 8191. -/
theorem tile1_lin (c : Dev nD) (t : Fin cfg0.N) (h2 : 2 ≤ t.val % 4) (r : Fin 4096) (o : Fin 256) :
    tileAt m c (pt1 t h2) (ix2 r o) = lin (aX m c) (aW m c) (aB m c) (bt t) ⟨4096 + r.val, by omega⟩ o :=
  (tile_lin m c (pt1 t h2) r o).trans (lin_congr _ _ _ o (by show (4 * (t.val / 4) + 1) / 4 = t.val / 4; omega)
    (by show 4096 * min ((4 * (t.val / 4) + 1) % 4) 1 + r.val = 4096 + r.val; omega))

/-- The entries the running sum adds are the stored tile's. -/
theorem pay2_eq_tile (c : Dev nD) (s : Fin cfg0.N) (r : Fin 4096) (o : Fin 256) :
    k0_pay2 (F := Ideal) (iblk m c 0 s) (iblk m c 1 s) (iblk m c 2 s) (ix2 r o) = tileAt m c s (ix2 r o) :=
  (pay2_at _ _ _ r o).trans (pay3_at _ _ _ r o).symm

/-- The running sum after the batch's two tiles: zero, plus the first tile's column sums, plus the second's. -/
theorem sum_two (c : Dev nD) (s0 s1 : Fin cfg0.N) (o : Fin 256) :
    sumAt m c s1 (sumAt m c s0 (k0_pay1 (F := Ideal))) (ix2 0 o)
      = (0 + ∑ r : Fin 4096, tileAt m c s0 (ix2 r o)) + ∑ r : Fin 4096, tileAt m c s1 (ix2 r o) := by
  refine (pay4_at _ _ _ _ o).trans ?_
  refine congrArg₂ (· + ·) ((pay4_at _ _ _ _ o).trans (congrArg₂ (· + ·) (pay1_at o) ?_)) ?_
  · exact Finset.sum_congr rfl fun r _ => pay2_eq_tile m c s0 r o
  · exact Finset.sum_congr rfl fun r _ => pay2_eq_tile m c s1 r o

/-- At a writing point the tracked mean and variance are the specification's of the point's batch, and each tracked tile,
    normalized with them, scaled and shifted, is the specification on the tile's rows. -/
theorem batch_spec (c : Dev nD) (t : Fin cfg0.N) (h2 : 2 ≤ t.val % 4) (g be : SV.Idx → EReal) :
    (∀ (r : Fin 4096) (o : Fin 256),
        (((stAt m c t.val t.isLt).y0 (ix2 r o) - (stAt m c t.val t.isLt).mn (ix2 0 o))
            * Ideal.rsqrt ((stAt m c t.val t.isLt).vr (ix2 0 o) + eps)) * g (ix1 o) + be (ix1 o)
          = G (aX m c) (aW m c) (aB m c) g be (ix3 (bt t) (⟨r.val, by omega⟩ : Fin 8192) o))
    ∧ (∀ (r : Fin 4096) (o : Fin 256),
        (((stAt m c t.val t.isLt).y1 (ix2 r o) - (stAt m c t.val t.isLt).mn (ix2 0 o))
            * Ideal.rsqrt ((stAt m c t.val t.isLt).vr (ix2 0 o) + eps)) * g (ix1 o) + be (ix1 o)
          = G (aX m c) (aW m c) (aB m c) g be (ix3 (bt t) (⟨4096 + r.val, by omega⟩ : Fin 8192) o)) := by
  rw [st_out m c t h2]
  exact (norm_tile (aX m c) (aW m c) (aB m c) g be (bt t) (tileAt m c (pt0 t)) (tileAt m c (pt1 t h2))
    (glue (tileAt m c (pt0 t)) (tileAt m c (pt1 t h2)))
    (sumAt m c (pt1 t h2) (sumAt m c (pt0 t) (k0_pay1 (F := Ideal))))
    (k0_pay6 (sumAt m c (pt1 t h2) (sumAt m c (pt0 t) (k0_pay1 (F := Ideal)))))
    (k0_pay7 (sumAt m c (pt1 t h2) (sumAt m c (pt0 t) (k0_pay1 (F := Ideal)))) (glue (tileAt m c (pt0 t)) (tileAt m c (pt1 t h2))))
    (tile0_lin m c t) (tile1_lin m c t h2) (glue_at0 _ _) (glue_at1 _ _)
    (sum_two m c (pt0 t) (pt1 t h2)) (pay6_at _) (pay7_at _ _)).2.2

/-! ## What a writing point leaves in the output's block -/

/-- What a writing point writes back is the specification read through the point's block. -/
theorem flushed_eq (c : Dev nD) (t : Fin cfg0.N) (hf : (cfg0.win 5).flush t = true) :
    (dats m 0 c).flushed 5 t = ((cfg0.win 5).blk t).view.read (Elt Ideal) (SPEC m c) := by
  have h2 : 2 ≤ t.val % 4 := (flush5 t).mp hf
  show (cfg0.win 5).cut (grid0.coords t) ((dats m 0 c).after 5 t) = _
  rw [after5]
  refine funext fun (j : S1x4096x256.Idx) => ?_
  obtain ⟨q, r, o, rfl⟩ : ∃ (q : Fin 1) (r : Fin 4096) (o : Fin 256), j = ix3 q r o := ⟨j 0, j 1, j 2, eq_ix3 j⟩
  obtain rfl : q = 0 := Subsingleton.elim q 0
  show outAt m c t (ix3 (0 : Fin 1) r o) = SPEC m c (((cfg0.win 5).blk t).view.emb (ix3 (0 : Fin 1) r o))
  rw [out_emb t h2 r o]
  unfold outAt
  rw [pay8_at, gamma_at m c t o, beta_at m c t o]
  obtain ⟨b0, b1⟩ := batch_spec m c t h2 (aG m c) (aBe m c)
  by_cases h3 : t.val % 4 = 2
  · rw [if_pos h3]
    exact (b0 r o).trans (G_congr _ _ _ _ _ o rfl (by show r.val = 4096 * (t.val % 4 - 2) + r.val; omega))
  · rw [if_neg h3]
    exact (b1 r o).trans (G_congr _ _ _ _ _ o rfl (by show 4096 + r.val = 4096 * (t.val % 4 - 2) + r.val; omega))

/-! ## The output array after the run -/

/-- The blocks written back cover the output array, so it ends holding the specification. -/
theorem final (c : Dev nD) : (dats m 0 c).arrAt 5 cfg0.N = SPEC m c :=
  (dats m 0 c).arrAt_eq_of_cover 5 (SPEC m c) (fun t hf => flushed_eq m c t hf) (fun i => covered5 i)

/-! ## The run, read -/

/-- After the frame run the output array is what the library computes from the proof data. -/
theorem post5 (r : PUnit × MemSt nD τ sig (Elt Ideal)) (h : Pipeline.FramePost cfgs (dats m) 0 (V m) r) (c : Dev nD) :
    r.2.mem ((c : Thread nD τ).loc main_v1) = (dats m 0 c).arrAt 5 cfg0.N :=
  (h c).1 5

/-- After the frame run the input is as launched: window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The weight argument is staged by no window (the window stages its transpose): the region leaves it as it finds it. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The bias is as launched: window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The scale is as launched: window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The shift is as launched: window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Every weakly fair execution of the kernel at the ideal values terminates with its result array holding the specification
    of the argument arrays as launched, the arguments unchanged. -/
theorem run : θ_run defs (onTc (τ := τ) (main (F := Ideal))) ⟨m, fun _ => 0, ρ⟩ (fun r => ∀ c : Dev nD,
      r.2.mem ((c.tc : Thread nD τ).loc main_v1) = SPEC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(post5 m r h c).trans (final m c), kept_main_arg0 m r h c, kept_main_arg1 m r h c,
      kept_main_arg2 m r h c, kept_main_arg3 m r h c, kept_main_arg4 m r h c⟩)
    (run_main m ρ)

end Cert.KernelIdeal.Result

end
-- ==== Proof.RefIsSpec.lean ====
import proofs.«122771_j89094801588783_2_alg».proof.Proof.Spec
import proofs.«122771_j89094801588783_2_alg».proof.Proof.Gen.ReferenceIdeal.Read

/-
  The reference program's last stage is the specification Cert.Spec.G, over the extended reals.

  The reference computes, for a batch β, a row r and a feature o,
    y      = (∑_f x[β, r, f] · W[o, f]) + bias[o],
    mean   = (0 + ∑_r y) / 8192,
    var    = (0 + ∑_r (y − mean)²) / 8192,
    result = (y − mean) · rsqrt(var + ε) · γ[o] + β'[o].
  The specification writes each quotient by 8192 as a product with the exact dyadic 1/8192 and has no zero initial
  value in front of its sums. The two differences are removed once each: the literal 8192.0 denotes the real 8192,
  which is not zero, so dividing by it is multiplying by its reciprocal; the literal +0.0 denotes 0, and 0 + s = s.
  Everything else is reading each stage at an index and identifying the composed index maps with the coordinates.
-/

noncomputable section

namespace Cert.ReferenceIdeal.RefValue

open Cert.ReferenceIdeal Cert.ReferenceIdeal.Read Cert.Spec Idealize.ShloMosaic Idealize.ShloMosaic.ValueIdx

/-! ### The two literals that are evaluated -/

/-- The float literal 8192.0 denotes the real 8192. -/
theorem ofBits_rows : Ideal.ofBits .f32 0x46000000#32 = ((8192 : ℝ) : EReal) := by
  simp [Ideal.ofBits, Ideal.ieee, -EReal.coe_mul]; norm_num

/-- Dividing by the literal 8192.0 is multiplying by the exact dyadic 1/8192. -/
theorem div_rows (a : EReal) : Ideal.div a (Ideal.ofBits .f32 0x46000000#32) = a * invRows := by
  rw [ofBits_rows, Ideal.div_coe (by norm_num : (8192 : ℝ) ≠ 0)]; rfl

/-! ### The composed index maps at coordinates -/

theorem lidx_v0_ix3 (β : Fin 16) (r : Fin 8192) (o k : Fin 256) : lidx_main_v0 (ix3 β r o) k = ix3 β r k :=
  funext fun a => match a with | ⟨0, _⟩ => rfl | ⟨1, _⟩ => rfl | ⟨2, _⟩ => rfl

theorem ridx_v0_ix3 (β : Fin 16) (r : Fin 8192) (o k : Fin 256) : ridx_main_v0 (ix3 β r o) k = ix2 o k :=
  funext fun a => match a with | ⟨0, _⟩ => rfl | ⟨1, _⟩ => rfl

/-- A feature vector broadcast to the whole array is read at the feature coordinate. -/
theorem idx_v1_v2_ix3 (β : Fin 16) (r : Fin 8192) (o : Fin 256) : idx_main_v1 (idx_main_v2 (ix3 β r o)) = ix1 o :=
  funext fun a => match a with | ⟨0, _⟩ => rfl

/-- A per-batch, per-feature statistic broadcast along the rows is read at row 0 of its form with the row axis kept at extent one. -/
theorem idx_v8_ix3 (β : Fin 16) (r : Fin 8192) (o : Fin 256) : idx_main_v8 (ix3 β r o) = ix3 β (0 : Fin 1) o :=
  funext fun a => match a with | ⟨0, _⟩ => rfl | ⟨1, _⟩ => rfl | ⟨2, _⟩ => rfl

/-- A row sum in its form with the row axis kept at extent one is read at the batch and feature coordinates. -/
theorem idx_v5_ix3 (β : Fin 16) (o : Fin 256) : idx_main_v5 (ix3 β (0 : Fin 1) o) = ix2 β o :=
  funext fun a => match a with | ⟨0, _⟩ => rfl | ⟨1, _⟩ => rfl

/-- The k-th summand of a row sum is the operand at row k. -/
theorem idx_v4_ix2 (β : Fin 16) (o : Fin 256) (k : Fin 8192) : idx_main_v4 (ix2 β o) k = ix3 β k o :=
  funext fun a => match a with | ⟨0, _⟩ => rfl | ⟨1, _⟩ => rfl | ⟨2, _⟩ => rfl

section
variable (x : SX.Idx → EReal) (W : SW.Idx → EReal) (b g be : SV.Idx → EReal)

/-! ### The stages at coordinates -/

/-- The affine layer. -/
theorem lin_at (β : Fin 16) (r : Fin 8192) (o : Fin 256) :
    val_main_v3 (F := Ideal) x W b (ix3 β r o) = lin x W b β r o := by
  rw [val_main_v3_apply, val_main_v0_apply, val_main_v2_apply, val_main_v1_apply, idx_v1_v2_ix3]
  simp only [Ideal.addf_def, lidx_v0_ix3, ridx_v0_ix3]
  rfl

/-- The mean over the rows, with the row axis kept at extent one. -/
theorem mean_at (β : Fin 16) (o : Fin 256) :
    val_main_v7 (F := Ideal) x W b (ix3 β (0 : Fin 1) o) = mean x W b β o := by
  rw [val_main_v7_apply, val_main_v5_apply, val_main_v6_apply, val_main_cst_0_apply, idx_v5_ix3, val_main_v4_apply,
    val_main_cst_apply]
  simp only [Ideal.hostDivf_def, Ideal.ofBits_def, Ideal.ofBits_zero_f32, zero_add, idx_v4_ix2, lin_at]
  rw [div_rows]
  rfl

/-- The biased variance over the rows, with the row axis kept at extent one. -/
theorem var_at (β : Fin 16) (o : Fin 256) :
    val_main_v14 (F := Ideal) x W b (ix3 β (0 : Fin 1) o) = var x W b β o := by
  rw [val_main_v14_apply, val_main_v12_apply, val_main_v13_apply, val_main_cst_2_apply,
    show idx_main_v12 (ix3 β (0 : Fin 1) o) = ix2 β o from idx_v5_ix3 β o, val_main_v11_apply, val_main_cst_1_apply]
  simp only [Ideal.hostDivf_def, Ideal.ofBits_def, Ideal.ofBits_zero_f32, zero_add,
    show ∀ k, idx_main_v11 (ix2 β o) k = ix3 β k o from idx_v4_ix2 β o,
    val_main_v10_apply, val_main_v9_apply, val_main_v8_apply, idx_v8_ix3, Ideal.mulf_def, Ideal.subf_def, lin_at, mean_at]
  rw [div_rows]
  rfl

/-- The result at coordinates: the normalized affine layer, scaled and shifted. -/
theorem out_at (β : Fin 16) (r : Fin 8192) (o : Fin 256) :
    val_main_v27 (F := Ideal) x W b g be (ix3 β r o)
      = ((lin x W b β r o - mean x W b β o) * Ideal.rsqrt (var x W b β o + eps)) * g (ix1 o) + be (ix1 o) := by
  rw [val_main_v27_apply, val_main_v24_apply, val_main_v21_apply, val_main_v16_apply, val_main_v15_apply,
    val_main_v20_apply, val_main_v19_apply, val_main_v18_apply, val_main_v17_apply, val_main_cst_3_apply,
    val_main_v23_apply, val_main_v22_apply, val_main_v26_apply, val_main_v25_apply,
    show idx_main_v15 (ix3 β r o) = ix3 β (0 : Fin 1) o from idx_v8_ix3 β r o,
    show idx_main_v20 (ix3 β r o) = ix3 β (0 : Fin 1) o from idx_v8_ix3 β r o,
    show idx_main_v22 (idx_main_v23 (ix3 β r o)) = ix1 o from idx_v1_v2_ix3 β r o,
    show idx_main_v25 (idx_main_v26 (ix3 β r o)) = ix1 o from idx_v1_v2_ix3 β r o,
    lin_at, mean_at, var_at]
  simp only [Ideal.addf_def, Ideal.mulf_def, Ideal.subf_def, Ideal.hostUnary_rsqrt_def, Ideal.ofBits_def]
  rfl

/-- The reference's last stage, as a function of the five argument arrays, is the specification. -/
theorem ref_is_spec : val_main_v27 (F := Ideal) x W b g be = Cert.Spec.G x W b g be := by
  funext j
  obtain ⟨β, r, o, rfl⟩ : ∃ (β : Fin 16) (r : Fin 8192) (o : Fin 256), j = ix3 β r o := ⟨j 0, j 1, j 2, eq_ix3 j⟩
  exact out_at x W b g be β r o

end

open Cert.ReferenceIdeal.Gen Idealize.ShloMosaic.TcCoe Idealize.SL.Sem Idealize.ShloMosaic.StableHlo in
/-- Every weakly fair execution of the reference ends with its result buffer holding the specification of the
    arguments' launch contents, the arguments unchanged. -/
theorem run_is_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = Cert.Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v27_eq _ _ _ _ _)).trans (ref_is_spec _ _ _ _ _), (h c).2⟩)
    (Cert.ReferenceIdeal.Value.run (F := Ideal) m ρ)

end Cert.ReferenceIdeal.RefValue

end
-- ==== Proof.lean ====
/-
  A fused affine layer and per-batch normalization against its plain reference, over the extended reals.

  Both programs compute, for a batch `b`, a row `r` and an output feature `o`,
    y[b, r, o] = ∑_f x[b, r, f] · W[o, f] + bias[o],   mean[b, o] = (∑_r y[b, r, o]) / 8192,
    var[b, o] = (∑_r (y[b, r, o] − mean[b, o])²) / 8192,   out = (y − mean) · rsqrt(var + ε) · γ[o] + β[o]
  (Spec.lean). The reference does so array by array (RefIsSpec.lean reads its run index by index). The kernel walks a
  16 × 4 grid: within a batch the first two points each compute one tile of 4096 rows of `y`, keep it in a batch-long
  scratch and add its column sums to a running sum; the second point then takes the mean (the sum times the exact dyadic
  1/8192) and the variance of the whole scratch; the last two points normalize one tile each and write it out. What the
  scratch operands hold is carried from point to point by an invariant (BodyIdeal/State.lean; BodyBits/ is the same
  argument for the program read at the word level, where only termination, the absence of faults and the unchanged
  arguments are claimed). The two sides meet in one law: a sum over 8192 rows is the sum of the sums over its two halves
  (NormTile.lean) — associativity and commutativity of addition on the extended reals, which need no finiteness.
-/
import proofs.«122771_j89094801588783_2_alg».proof.Defs
import proofs.«122771_j89094801588783_2_alg».proof.Proof.Gen.Kernel
import proofs.«122771_j89094801588783_2_alg».proof.Proof.Gen.KernelIdeal
import proofs.«122771_j89094801588783_2_alg».proof.Proof.Gen.ReferenceIdeal
import proofs.«122771_j89094801588783_2_alg».proof.Proof.Gen.Pre_finite_inputs
import proofs.«122771_j89094801588783_2_alg».proof.Proof.BodyBits.Run
import proofs.«122771_j89094801588783_2_alg».proof.Proof.BodyIdeal.Run
import proofs.«122771_j89094801588783_2_alg».proof.Proof.ResultIdeal
import proofs.«122771_j89094801588783_2_alg».proof.Proof.RefIsSpec

noncomputable section

namespace Cert.Proof

open Idealize.ShloMosaic Idealize.SL.Sem

/-- The word-level kernel runs to the end without a fault and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the five arguments both programs end with the specification's array of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.RefValue.run_is_spec m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
